-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S_ : Shape := ⟨0, ![]⟩
abbrev S128x256 : Shape := ⟨2, ![128, 256]⟩
abbrev S256 : Shape := ⟨1, ![256]⟩
abbrev S256x256 : Shape := ⟨2, ![256, 256]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  reducesTo_S_S_d : S_.ReducesTo [] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part6 {F : FTy → Type} [FloatOps F] (main_arg23 : FVec F S256 .f32) (main_arg24 : FVec F S256x256 .f32) (main_arg25 : FVec F S256 .f32) (main_v97 : IVec S_ 1) (main_v101 : IVec S_ 1) : IVec S_ 1 :=
  let main_v102 : IVec S_ 1 := andi main_v97 main_v101
  let main_v103 : FVec F S256 .f32 := Host.absf main_arg23
  let main_cst_40 : FVec F S_ .f32 := constant S_ .f32 0x7F800000#32
  let main_v104 : FVec F S256 .f32 := broadcastInDim S256 ![] bcast_S_S256 main_cst_40
  let main_v105 : IVec S256 1 := cmpf .olt main_v103 main_v104
  let main_c_41 : IVec S_ 1 := constantI S_ 1 1#1
  let main_v106 : IVec S_ 1 := (fun x v => Host.reduce IntOp.andi x v reducesTo_S256_S_d0 h_S_) main_v105 main_c_41
  let main_v107 : IVec S_ 1 := andi main_v102 main_v106
  let main_v108 : FVec F S256x256 .f32 := Host.absf main_arg24
  let main_cst_42 : FVec F S_ .f32 := constant S_ .f32 0x7F800000#32
  let main_v109 : FVec F S256x256 .f32 := broadcastInDim S256x256 ![] bcast_S_S256x256 main_cst_42
  let main_v110 : IVec S256x256 1 := cmpf .olt main_v108 main_v109
  let main_c_43 : IVec S_ 1 := constantI S_ 1 1#1
  let main_v111 : IVec S_ 1 := (fun x v => Host.reduce IntOp.andi x v reducesTo_S256x256_S_d0_1 h_S_) main_v110 main_c_43
  let main_v112 : IVec S_ 1 := andi main_v107 main_v111
  let main_v113 : FVec F S256 .f32 := Host.absf main_arg25
  let main_cst_44 : FVec F S_ .f32 := constant S_ .f32 0x7F800000#32
  let main_v114 : FVec F S256 .f32 := broadcastInDim S256 ![] bcast_S_S256 main_cst_44
  let main_v115 : IVec S256 1 := cmpf .olt main_v113 main_v114
  let main_c_45 : IVec S_ 1 := constantI S_ 1 1#1
  let main_v116 : IVec S_ 1 := (fun x v => Host.reduce IntOp.andi x v reducesTo_S256_S_d0 h_S_) main_v115 main_c_45
  let main_v117 : IVec S_ 1 := andi main_v112 main_v116
  main_v117

def fn_part5 {F : FTy → Type} [FloatOps F] (main_arg20 : FVec F S256 .f32) (main_arg21 : FVec F S256 .f32) (main_arg22 : FVec F S256x256 .f32) (main_arg23 : FVec F S256 .f32) (main_arg24 : FVec F S256x256 .f32) (main_arg25 : FVec F S256 .f32) (main_v82 : IVec S_ 1) (main_v83 : FVec F S256 .f32) (main_v84 : FVec F S256 .f32) : IVec S_ 1 :=
  let main_v85 : IVec S256 1 := cmpf .olt main_v83 main_v84
  let main_c_33 : IVec S_ 1 := constantI S_ 1 1#1
  let main_v86 : IVec S_ 1 := (fun x v => Host.reduce IntOp.andi x v reducesTo_S256_S_d0 h_S_) main_v85 main_c_33
  let main_v87 : IVec S_ 1 := andi main_v82 main_v86
  let main_v88 : FVec F S256 .f32 := Host.absf main_arg20
  let main_cst_34 : FVec F S_ .f32 := constant S_ .f32 0x7F800000#32
  let main_v89 : FVec F S256 .f32 := broadcastInDim S256 ![] bcast_S_S256 main_cst_34
  let main_v90 : IVec S256 1 := cmpf .olt main_v88 main_v89
  let main_c_35 : IVec S_ 1 := constantI S_ 1 1#1
  let main_v91 : IVec S_ 1 := (fun x v => Host.reduce IntOp.andi x v reducesTo_S256_S_d0 h_S_) main_v90 main_c_35
  let main_v92 : IVec S_ 1 := andi main_v87 main_v91
  let main_v93 : FVec F S256 .f32 := Host.absf main_arg21
  let main_cst_36 : FVec F S_ .f32 := constant S_ .f32 0x7F800000#32
  let main_v94 : FVec F S256 .f32 := broadcastInDim S256 ![] bcast_S_S256 main_cst_36
  let main_v95 : IVec S256 1 := cmpf .olt main_v93 main_v94
  let main_c_37 : IVec S_ 1 := constantI S_ 1 1#1
  let main_v96 : IVec S_ 1 := (fun x v => Host.reduce IntOp.andi x v reducesTo_S256_S_d0 h_S_) main_v95 main_c_37
  let main_v97 : IVec S_ 1 := andi main_v92 main_v96
  let main_v98 : FVec F S256x256 .f32 := Host.absf main_arg22
  let main_cst_38 : FVec F S_ .f32 := constant S_ .f32 0x7F800000#32
  let main_v99 : FVec F S256x256 .f32 := broadcastInDim S256x256 ![] bcast_S_S256x256 main_cst_38
  let main_v100 : IVec S256x256 1 := cmpf .olt main_v98 main_v99
  let main_c_39 : IVec S_ 1 := constantI S_ 1 1#1
  let main_v101 : IVec S_ 1 := (fun x v => Host.reduce IntOp.andi x v reducesTo_S256x256_S_d0_1 h_S_) main_v100 main_c_39
  fn_part6 (F := F) main_arg23 main_arg24 main_arg25 main_v97 main_v101

def fn_part4 {F : FTy → Type} [FloatOps F] (main_arg16 : FVec F S256 .f32) (main_arg17 : FVec F S256 .f32) (main_arg18 : FVec F S256 .f32) (main_arg19 : FVec F S256 .f32) (main_arg20 : FVec F S256 .f32) (main_arg21 : FVec F S256 .f32) (main_arg22 : FVec F S256x256 .f32) (main_arg23 : FVec F S256 .f32) (main_arg24 : FVec F S256x256 .f32) (main_arg25 : FVec F S256 .f32) (main_v67 : IVec S_ 1) : IVec S_ 1 :=
  let main_v68 : FVec F S256 .f32 := Host.absf main_arg16
  let main_cst_26 : FVec F S_ .f32 := constant S_ .f32 0x7F800000#32
  let main_v69 : FVec F S256 .f32 := broadcastInDim S256 ![] bcast_S_S256 main_cst_26
  let main_v70 : IVec S256 1 := cmpf .olt main_v68 main_v69
  let main_c_27 : IVec S_ 1 := constantI S_ 1 1#1
  let main_v71 : IVec S_ 1 := (fun x v => Host.reduce IntOp.andi x v reducesTo_S256_S_d0 h_S_) main_v70 main_c_27
  let main_v72 : IVec S_ 1 := andi main_v67 main_v71
  let main_v73 : FVec F S256 .f32 := Host.absf main_arg17
  let main_cst_28 : FVec F S_ .f32 := constant S_ .f32 0x7F800000#32
  let main_v74 : FVec F S256 .f32 := broadcastInDim S256 ![] bcast_S_S256 main_cst_28
  let main_v75 : IVec S256 1 := cmpf .olt main_v73 main_v74
  let main_c_29 : IVec S_ 1 := constantI S_ 1 1#1
  let main_v76 : IVec S_ 1 := (fun x v => Host.reduce IntOp.andi x v reducesTo_S256_S_d0 h_S_) main_v75 main_c_29
  let main_v77 : IVec S_ 1 := andi main_v72 main_v76
  let main_v78 : FVec F S256 .f32 := Host.absf main_arg18
  let main_cst_30 : FVec F S_ .f32 := constant S_ .f32 0x7F800000#32
  let main_v79 : FVec F S256 .f32 := broadcastInDim S256 ![] bcast_S_S256 main_cst_30
  let main_v80 : IVec S256 1 := cmpf .olt main_v78 main_v79
  let main_c_31 : IVec S_ 1 := constantI S_ 1 1#1
  let main_v81 : IVec S_ 1 := (fun x v => Host.reduce IntOp.andi x v reducesTo_S256_S_d0 h_S_) main_v80 main_c_31
  let main_v82 : IVec S_ 1 := andi main_v77 main_v81
  let main_v83 : FVec F S256 .f32 := Host.absf main_arg19
  let main_cst_32 : FVec F S_ .f32 := constant S_ .f32 0x7F800000#32
  let main_v84 : FVec F S256 .f32 := broadcastInDim S256 ![] bcast_S_S256 main_cst_32
  fn_part5 (F := F) main_arg20 main_arg21 main_arg22 main_arg23 main_arg24 main_arg25 main_v82 main_v83 main_v84

def fn_part3 {F : FTy → Type} [FloatOps F] (main_arg13 : FVec F S256 .f32) (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_arg22 : FVec F S256x256 .f32) (main_arg23 : FVec F S256 .f32) (main_arg24 : FVec F S256x256 .f32) (main_arg25 : FVec F S256 .f32) (main_v47 : IVec S_ 1) (main_v50 : IVec S256 1) : IVec S_ 1 :=
  let main_c_19 : IVec S_ 1 := constantI S_ 1 1#1
  let main_v51 : IVec S_ 1 := (fun x v => Host.reduce IntOp.andi x v reducesTo_S256_S_d0 h_S_) main_v50 main_c_19
  let main_v52 : IVec S_ 1 := andi main_v47 main_v51
  let main_v53 : FVec F S256 .f32 := Host.absf main_arg13
  let main_cst_20 : FVec F S_ .f32 := constant S_ .f32 0x7F800000#32
  let main_v54 : FVec F S256 .f32 := broadcastInDim S256 ![] bcast_S_S256 main_cst_20
  let main_v55 : IVec S256 1 := cmpf .olt main_v53 main_v54
  let main_c_21 : IVec S_ 1 := constantI S_ 1 1#1
  let main_v56 : IVec S_ 1 := (fun x v => Host.reduce IntOp.andi x v reducesTo_S256_S_d0 h_S_) main_v55 main_c_21
  let main_v57 : IVec S_ 1 := andi main_v52 main_v56
  let main_v58 : FVec F S256 .f32 := Host.absf main_arg14
  let main_cst_22 : FVec F S_ .f32 := constant S_ .f32 0x7F800000#32
  let main_v59 : FVec F S256 .f32 := broadcastInDim S256 ![] bcast_S_S256 main_cst_22
  let main_v60 : IVec S256 1 := cmpf .olt main_v58 main_v59
  let main_c_23 : IVec S_ 1 := constantI S_ 1 1#1
  let main_v61 : IVec S_ 1 := (fun x v => Host.reduce IntOp.andi x v reducesTo_S256_S_d0 h_S_) main_v60 main_c_23
  let main_v62 : IVec S_ 1 := andi main_v57 main_v61
  let main_v63 : FVec F S256 .f32 := Host.absf main_arg15
  let main_cst_24 : FVec F S_ .f32 := constant S_ .f32 0x7F800000#32
  let main_v64 : FVec F S256 .f32 := broadcastInDim S256 ![] bcast_S_S256 main_cst_24
  let main_v65 : IVec S256 1 := cmpf .olt main_v63 main_v64
  let main_c_25 : IVec S_ 1 := constantI S_ 1 1#1
  let main_v66 : IVec S_ 1 := (fun x v => Host.reduce IntOp.andi x v reducesTo_S256_S_d0 h_S_) main_v65 main_c_25
  let main_v67 : IVec S_ 1 := andi main_v62 main_v66
  fn_part4 (F := F) main_arg16 main_arg17 main_arg18 main_arg19 main_arg20 main_arg21 main_arg22 main_arg23 main_arg24 main_arg25 main_v67

def fn_part2 {F : FTy → Type} [FloatOps F] (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_arg22 : FVec F S256x256 .f32) (main_arg23 : FVec F S256 .f32) (main_arg24 : FVec F S256x256 .f32) (main_arg25 : FVec F S256 .f32) (main_v32 : IVec S_ 1) (main_v33 : FVec F S256 .f32) : IVec S_ 1 :=
  let main_cst_12 : FVec F S_ .f32 := constant S_ .f32 0x7F800000#32
  let main_v34 : FVec F S256 .f32 := broadcastInDim S256 ![] bcast_S_S256 main_cst_12
  let main_v35 : IVec S256 1 := cmpf .olt main_v33 main_v34
  let main_c_13 : IVec S_ 1 := constantI S_ 1 1#1
  let main_v36 : IVec S_ 1 := (fun x v => Host.reduce IntOp.andi x v reducesTo_S256_S_d0 h_S_) main_v35 main_c_13
  let main_v37 : IVec S_ 1 := andi main_v32 main_v36
  let main_v38 : FVec F S256 .f32 := Host.absf main_arg10
  let main_cst_14 : FVec F S_ .f32 := constant S_ .f32 0x7F800000#32
  let main_v39 : FVec F S256 .f32 := broadcastInDim S256 ![] bcast_S_S256 main_cst_14
  let main_v40 : IVec S256 1 := cmpf .olt main_v38 main_v39
  let main_c_15 : IVec S_ 1 := constantI S_ 1 1#1
  let main_v41 : IVec S_ 1 := (fun x v => Host.reduce IntOp.andi x v reducesTo_S256_S_d0 h_S_) main_v40 main_c_15
  let main_v42 : IVec S_ 1 := andi main_v37 main_v41
  let main_v43 : FVec F S256 .f32 := Host.absf main_arg11
  let main_cst_16 : FVec F S_ .f32 := constant S_ .f32 0x7F800000#32
  let main_v44 : FVec F S256 .f32 := broadcastInDim S256 ![] bcast_S_S256 main_cst_16
  let main_v45 : IVec S256 1 := cmpf .olt main_v43 main_v44
  let main_c_17 : IVec S_ 1 := constantI S_ 1 1#1
  let main_v46 : IVec S_ 1 := (fun x v => Host.reduce IntOp.andi x v reducesTo_S256_S_d0 h_S_) main_v45 main_c_17
  let main_v47 : IVec S_ 1 := andi main_v42 main_v46
  let main_v48 : FVec F S256 .f32 := Host.absf main_arg12
  let main_cst_18 : FVec F S_ .f32 := constant S_ .f32 0x7F800000#32
  let main_v49 : FVec F S256 .f32 := broadcastInDim S256 ![] bcast_S_S256 main_cst_18
  let main_v50 : IVec S256 1 := cmpf .olt main_v48 main_v49
  fn_part3 (F := F) main_arg13 main_arg14 main_arg15 main_arg16 main_arg17 main_arg18 main_arg19 main_arg20 main_arg21 main_arg22 main_arg23 main_arg24 main_arg25 main_v47 main_v50

def fn_part1 {F : FTy → Type} [FloatOps F] (main_arg6 : FVec F S256x256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_arg22 : FVec F S256x256 .f32) (main_arg23 : FVec F S256 .f32) (main_arg24 : FVec F S256x256 .f32) (main_arg25 : FVec F S256 .f32) (main_v12 : IVec S_ 1) (main_v15 : IVec S256 1) (main_c_5 : IVec S_ 1) : IVec S_ 1 :=
  let main_v16 : IVec S_ 1 := (fun x v => Host.reduce IntOp.andi x v reducesTo_S256_S_d0 h_S_) main_v15 main_c_5
  let main_v17 : IVec S_ 1 := andi main_v12 main_v16
  let main_v18 : FVec F S256x256 .f32 := Host.absf main_arg6
  let main_cst_6 : FVec F S_ .f32 := constant S_ .f32 0x7F800000#32
  let main_v19 : FVec F S256x256 .f32 := broadcastInDim S256x256 ![] bcast_S_S256x256 main_cst_6
  let main_v20 : IVec S256x256 1 := cmpf .olt main_v18 main_v19
  let main_c_7 : IVec S_ 1 := constantI S_ 1 1#1
  let main_v21 : IVec S_ 1 := (fun x v => Host.reduce IntOp.andi x v reducesTo_S256x256_S_d0_1 h_S_) main_v20 main_c_7
  let main_v22 : IVec S_ 1 := andi main_v17 main_v21
  let main_v23 : FVec F S256 .f32 := Host.absf main_arg7
  let main_cst_8 : FVec F S_ .f32 := constant S_ .f32 0x7F800000#32
  let main_v24 : FVec F S256 .f32 := broadcastInDim S256 ![] bcast_S_S256 main_cst_8
  let main_v25 : IVec S256 1 := cmpf .olt main_v23 main_v24
  let main_c_9 : IVec S_ 1 := constantI S_ 1 1#1
  let main_v26 : IVec S_ 1 := (fun x v => Host.reduce IntOp.andi x v reducesTo_S256_S_d0 h_S_) main_v25 main_c_9
  let main_v27 : IVec S_ 1 := andi main_v22 main_v26
  let main_v28 : FVec F S256x256 .f32 := Host.absf main_arg8
  let main_cst_10 : FVec F S_ .f32 := constant S_ .f32 0x7F800000#32
  let main_v29 : FVec F S256x256 .f32 := broadcastInDim S256x256 ![] bcast_S_S256x256 main_cst_10
  let main_v30 : IVec S256x256 1 := cmpf .olt main_v28 main_v29
  let main_c_11 : IVec S_ 1 := constantI S_ 1 1#1
  let main_v31 : IVec S_ 1 := (fun x v => Host.reduce IntOp.andi x v reducesTo_S256x256_S_d0_1 h_S_) main_v30 main_c_11
  let main_v32 : IVec S_ 1 := andi main_v27 main_v31
  let main_v33 : FVec F S256 .f32 := Host.absf main_arg9
  fn_part2 (F := F) main_arg10 main_arg11 main_arg12 main_arg13 main_arg14 main_arg15 main_arg16 main_arg17 main_arg18 main_arg19 main_arg20 main_arg21 main_arg22 main_arg23 main_arg24 main_arg25 main_v32 main_v33

def fn {F : FTy → Type} [FloatOps F] (main_arg0 : FVec F S50000x128 .f32) (main_arg1 : IVec S800000 32) (main_arg2 : IVec S800000 32) (main_arg3 : FVec F S_ .f32) (main_arg4 : FVec F S128x256 .f32) (main_arg5 : FVec F S256 .f32) (main_arg6 : FVec F S256x256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_arg22 : FVec F S256x256 .f32) (main_arg23 : FVec F S256 .f32) (main_arg24 : FVec F S256x256 .f32) (main_arg25 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S_ .f32 := Host.absf main_arg3
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S128x256 .f32 := Host.absf main_arg4
  let main_cst_2 : FVec F S_ .f32 := constant S_ .f32 0x7F800000#32
  let main_v9 : FVec F S128x256 .f32 := broadcastInDim S128x256 ![] bcast_S_S128x256 main_cst_2
  let main_v10 : IVec S128x256 1 := cmpf .olt main_v8 main_v9
  let main_c_3 : IVec S_ 1 := constantI S_ 1 1#1
  let main_v11 : IVec S_ 1 := (fun x v => Host.reduce IntOp.andi x v reducesTo_S128x256_S_d0_1 h_S_) main_v10 main_c_3
  let main_v12 : IVec S_ 1 := andi main_v7 main_v11
  let main_v13 : FVec F S256 .f32 := Host.absf main_arg5
  let main_cst_4 : FVec F S_ .f32 := constant S_ .f32 0x7F800000#32
  let main_v14 : FVec F S256 .f32 := broadcastInDim S256 ![] bcast_S_S256 main_cst_4
  let main_v15 : IVec S256 1 := cmpf .olt main_v13 main_v14
  let main_c_5 : IVec S_ 1 := constantI S_ 1 1#1
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v12 main_v15 main_c_5
-- ==== Kernel.lean ====
abbrev S50000x128 : Shape := ⟨2, ![50000, 128]⟩
abbrev S800000 : Shape := ⟨1, ![800000]⟩
abbrev S_ : Shape := ⟨0, ![]⟩
abbrev S128x256 : Shape := ⟨2, ![128, 256]⟩
abbrev S256 : Shape := ⟨1, ![256]⟩
abbrev S256x256 : Shape := ⟨2, ![256, 256]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩

abbrev nBuf : Space → Nat
  | .hbm => 63
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S_, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256x256, .f32⟩
  | .hbm, ⟨23, _⟩ => ⟨S256, .f32⟩
  | .hbm, ⟨24, _⟩ => ⟨S256x256, .f32⟩
  | .hbm, ⟨25, _⟩ => ⟨S256, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S_, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S1x256, .f32⟩
  | .hbm, ⟨61, _⟩ => ⟨S50000x256, .f32⟩
  | .hbm, ⟨62, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S256x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31_0 : Ref sig .tc := ⟨.hbm, 61, rfl⟩
abbrev main_v31_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc0_stg24_0 : Ref sig .tc := ⟨.vmem, 26, rfl⟩
abbrev cc0_stg24_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25
abbrev cc0_sem24_0 : DmaSem sig := 26
abbrev cc0_sem24_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S2000x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2000x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x256.size a ≤ S1x256.size a
  hwx0_17 : ∀ i : grid0.Coords, EltTy.bits .f32 = 32 ∨ (Rect.block (s := S1x256) S1x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x256.size a ≤ S1x256.size a
  hwx0_18 : ∀ i : grid0.Coords, EltTy.bits .f32 = 32 ∨ (Rect.block (s := S1x256) S1x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x256.size a ≤ S256x256.size a
  hwx0_19 : ∀ i : grid0.Coords, EltTy.bits .f32 = 32 ∨ (Rect.block (s := S256x256) S256x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x256.size a ≤ S1x256.size a
  hwx0_20 : ∀ i : grid0.Coords, EltTy.bits .f32 = 32 ∨ (Rect.block (s := S1x256) S1x256.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256x256.size a ≤ S256x256.size a
  hwx0_21 : ∀ i : grid0.Coords, EltTy.bits .f32 = 32 ∨ (Rect.block (s := S256x256) S256x256.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x256.size a ≤ S1x256.size a
  hwx0_22 : ∀ i : grid0.Coords, EltTy.bits .f32 = 32 ∨ (Rect.block (s := S1x256) S1x256.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S2000x256.size a ≤ S50000x256.size a
  hwx0_23 : ∀ i : grid0.Coords, EltTy.bits .f32 = 32 ∨ (Rect.block (s := S50000x256) S2000x256.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S2000x256.size a ≤ S50000x256.size a
  hwx0_24 : ∀ i : grid0.Coords, EltTy.bits .f32 = 32 ∨ (Rect.block (s := S50000x256) S2000x256.size (cc0_transform_24 i) (hinb0_24 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v22) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v23) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v24) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v25) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v26) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v27) S1x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v28) S1x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg22) S256x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v29) S1x256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg24) S256x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v30) S1x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v31_0) S2000x256.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v31_1) S2000x256.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S_ : Shape := ⟨0, ![]⟩
abbrev S128x256 : Shape := ⟨2, ![128, 256]⟩
abbrev S256 : Shape := ⟨1, ![256]⟩
abbrev S256x256 : Shape := ⟨2, ![256, 256]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩

abbrev nBuf : Space → Nat
  | .hbm => 115
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S_, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256x256, .f32⟩
  | .hbm, ⟨23, _⟩ => ⟨S256, .f32⟩
  | .hbm, ⟨24, _⟩ => ⟨S256x256, .f32⟩
  | .hbm, ⟨25, _⟩ => ⟨S256, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S_, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x256, .f32⟩
  | .hbm, ⟨45, _⟩ => ⟨S1x256, .f32⟩
  | .hbm, ⟨46, _⟩ => ⟨S50000x256, .f32⟩
  | .hbm, ⟨47, _⟩ => ⟨S50000x256, .f32⟩
  | .hbm, ⟨48, _⟩ => ⟨S1x256, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S1x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S1x256, .f32⟩
  | .hbm, ⟨70, _⟩ => ⟨S50000x256, .f32⟩
  | .hbm, ⟨71, _⟩ => ⟨S50000x256, .f32⟩
  | .hbm, ⟨72, _⟩ => ⟨S_, .f32⟩
  | .hbm, ⟨73, _⟩ => ⟨S256, .f32⟩
  | .hbm, ⟨74, _⟩ => ⟨S256, .f32⟩
  | .hbm, ⟨75, _⟩ => ⟨S256, .f32⟩
  | .hbm, ⟨76, _⟩ => ⟨S256, .f32⟩
  | .hbm, ⟨77, _⟩ => ⟨S1x256, .f32⟩
  | .hbm, ⟨78, _⟩ => ⟨S50000x256, .f32⟩
  | .hbm, ⟨79, _⟩ => ⟨S50000x256, .f32⟩
  | .hbm, ⟨80, _⟩ => ⟨S1x256, .f32⟩
  | .hbm, ⟨81, _⟩ => ⟨S50000x256, .f32⟩
  | .hbm, ⟨82, _⟩ => ⟨S50000x256, .f32⟩
  | .hbm, ⟨83, _⟩ => ⟨S_, .f32⟩
  | .hbm, ⟨84, _⟩ => ⟨S50000x256, .f32⟩
  | .hbm, ⟨85, _⟩ => ⟨S50000x256, .f32⟩
  | .hbm, ⟨86, _⟩ => ⟨S50000x256, .f32⟩
  | .hbm, ⟨87, _⟩ => ⟨S1x256, .f32⟩
  | .hbm, ⟨88, _⟩ => ⟨S50000x256, .f32⟩
  | .hbm, ⟨89, _⟩ => ⟨S50000x256, .f32⟩
  | .hbm, ⟨90, _⟩ => ⟨S_, .f32⟩
  | .hbm, ⟨91, _⟩ => ⟨S50000x256, .f32⟩
  | .hbm, ⟨92, _⟩ => ⟨S50000x256, .f32⟩
  | .hbm, ⟨93, _⟩ => ⟨S1x256, .f32⟩
  | .hbm, ⟨94, _⟩ => ⟨S50000x256, .f32⟩
  | .hbm, ⟨95, _⟩ => ⟨S50000x256, .f32⟩
  | .hbm, ⟨96, _⟩ => ⟨S_, .f32⟩
  | .hbm, ⟨97, _⟩ => ⟨S256, .f32⟩
  | .hbm, ⟨98, _⟩ => ⟨S256, .f32⟩
  | .hbm, ⟨99, _⟩ => ⟨S256, .f32⟩
  | .hbm, ⟨100, _⟩ => ⟨S256, .f32⟩
  | .hbm, ⟨101, _⟩ => ⟨S1x256, .f32⟩
  | .hbm, ⟨102, _⟩ => ⟨S50000x256, .f32⟩
  | .hbm, ⟨103, _⟩ => ⟨S50000x256, .f32⟩
  | .hbm, ⟨104, _⟩ => ⟨S1x256, .f32⟩
  | .hbm, ⟨105, _⟩ => ⟨S50000x256, .f32⟩
  | .hbm, ⟨106, _⟩ => ⟨S50000x256, .f32⟩
  | .hbm, ⟨107, _⟩ => ⟨S50000x256, .f32⟩
  | .hbm, ⟨108, _⟩ => ⟨S1x256, .f32⟩
  | .hbm, ⟨109, _⟩ => ⟨S50000x256, .f32⟩
  | .hbm, ⟨110, _⟩ => ⟨S50000x256, .f32⟩
  | .hbm, ⟨111, _⟩ => ⟨S50000x256, .f32⟩
  | .hbm, ⟨112, _⟩ => ⟨S1x256, .f32⟩
  | .hbm, ⟨113, _⟩ => ⟨S50000x256, .f32⟩
  | .hbm, ⟨114, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_2 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_call0_cst : Ref sig .tc := ⟨.hbm, 62, rfl⟩
abbrev main_call0_v0 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_3 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_call1_cst : Ref sig .tc := ⟨.hbm, 83, rfl⟩
abbrev main_call1_v0 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_call2_cst : Ref sig .tc := ⟨.hbm, 90, rfl⟩
abbrev main_call2_v0 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_4 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S_S50000x256 : S_.BroadcastsInDim S50000x256 (![] : Fin 0 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.MlpSpec.lean ====
/-
  The dense chain both programs compute on one row of node features, written once over the extended reals.

  A row x of 128 features goes through three dense layers of width 256 (a product with a weight matrix plus a bias),
  the first two followed by an inference-mode batch normalisation and a rectifier, the third by a rectifier and
  then a batch normalisation; two further dense layers read the normalised row and give the two results (mean and
  variance heads). Batch normalisation with scale g, shift beta, moving mean mm and moving variance mv sends y to
  (y - mm) * (g * rsqrt (mv + eps)) + beta, column by column, with eps the f32 word nearest 1e-3; the rectifier is
  the maximum with the f32 zero word. Nothing here depends on a row's position among the 50000 nodes: entry (n, q)
  of a result is a function of row n of the features alone, which is why a tiling of the rows into blocks of 2000
  computes the same array as one pass over all rows.
-/
import Idealize.ShloMosaic.PureOps.Ideal.Laws
import Idealize.ShloMosaic.Lib.ValueIdx

noncomputable section

namespace Cert.Mlp

open Idealize.ShloMosaic Idealize.ShloMosaic.ValueIdx

/-- The batch-normalisation epsilon: what the f32 word of 1e-3 denotes. -/
def bnEps : EReal := Ideal.ofBits .f32 0x3A83126F#32

/-- The rectifier's threshold: what the f32 zero word denotes. -/
def zeroWord : EReal := Ideal.ofBits .f32 0x00000000#32

/-- A dense layer on one row: column q of x · W, plus the bias. -/
def dense {K B : ℕ} (x : Fin K → EReal) (W : Fin K → Fin B → EReal) (b : Fin B → EReal) : Fin B → EReal :=
  fun q => (∑ k : Fin K, x k * W k q) + b q

/-- Inference-mode batch normalisation of one row, column by column. -/
def bnorm {B : ℕ} (y g beta mm mv : Fin B → EReal) : Fin B → EReal :=
  fun q => (y q - mm q) * (g q * Ideal.rsqrt (mv q + bnEps)) + beta q

/-- The rectifier on one row. -/
def relu {B : ℕ} (y : Fin B → EReal) : Fin B → EReal := fun q => max (y q) zeroWord

/-- The weights of the chain, each vector a function of its column and each matrix of (row, column). -/
structure Params where
  W0 : Fin 128 → Fin 256 → EReal
  b0 : Fin 256 → EReal
  W1 : Fin 256 → Fin 256 → EReal
  b1 : Fin 256 → EReal
  W2 : Fin 256 → Fin 256 → EReal
  b2 : Fin 256 → EReal
  g0 : Fin 256 → EReal
  beta0 : Fin 256 → EReal
  mm0 : Fin 256 → EReal
  mv0 : Fin 256 → EReal
  g1 : Fin 256 → EReal
  beta1 : Fin 256 → EReal
  mm1 : Fin 256 → EReal
  mv1 : Fin 256 → EReal
  go : Fin 256 → EReal
  betao : Fin 256 → EReal
  mmo : Fin 256 → EReal
  mvo : Fin 256 → EReal
  Wm : Fin 256 → Fin 256 → EReal
  bm : Fin 256 → EReal
  Wv : Fin 256 → Fin 256 → EReal
  bv : Fin 256 → EReal

/-- After the first layer: dense, batch normalisation, rectifier. -/
def hidden1 (P : Params) (x : Fin 128 → EReal) : Fin 256 → EReal :=
  relu (bnorm (dense x P.W0 P.b0) P.g0 P.beta0 P.mm0 P.mv0)

/-- After the second layer: dense, batch normalisation, rectifier. -/
def hidden2 (P : Params) (x : Fin 128 → EReal) : Fin 256 → EReal :=
  relu (bnorm (dense (hidden1 P x) P.W1 P.b1) P.g1 P.beta1 P.mm1 P.mv1)

/-- After the third layer: dense, rectifier. -/
def hidden3 (P : Params) (x : Fin 128 → EReal) : Fin 256 → EReal :=
  relu (dense (hidden2 P x) P.W2 P.b2)

/-- The outer batch normalisation of the third layer's row: what both heads read. -/
def normed (P : Params) (x : Fin 128 → EReal) : Fin 256 → EReal :=
  bnorm (hidden3 P x) P.go P.betao P.mmo P.mvo

/-- The mean head of one row. -/
def meanRow (P : Params) (x : Fin 128 → EReal) : Fin 256 → EReal := dense (normed P x) P.Wm P.bm

/-- The variance head of one row. -/
def varRow (P : Params) (x : Fin 128 → EReal) : Fin 256 → EReal := dense (normed P x) P.Wv P.bv

/-- Row n of a [50000, 128] array. -/
def rowOf (h : (⟨2, ![50000, 128]⟩ : Shape).Idx → EReal) (n : Fin 50000) : Fin 128 → EReal := fun k => h (ix2 n k)

/-- The mean result over all nodes: entry (n, q) is the mean head of row n at column q. -/
def meanOut (P : Params) (h : (⟨2, ![50000, 128]⟩ : Shape).Idx → EReal) : (⟨2, ![50000, 256]⟩ : Shape).Idx → EReal :=
  fun i => meanRow P (rowOf h (i 0)) (i 1)

/-- The variance result over all nodes. -/
def varOut (P : Params) (h : (⟨2, ![50000, 128]⟩ : Shape).Idx → EReal) : (⟨2, ![50000, 256]⟩ : Shape).Idx → EReal :=
  fun i => varRow P (rowOf h (i 0)) (i 1)

theorem meanOut_ix2 (P : Params) (h : (⟨2, ![50000, 128]⟩ : Shape).Idx → EReal) (n : Fin 50000) (q : Fin 256) :
    meanOut P h (ix2 n q) = meanRow P (rowOf h n) q := rfl

theorem varOut_ix2 (P : Params) (h : (⟨2, ![50000, 128]⟩ : Shape).Idx → EReal) (n : Fin 50000) (q : Fin 256) :
    varOut P h (ix2 n q) = varRow P (rowOf h n) q := rfl

end Cert.Mlp

end
-- ==== Proof.KernelPay.lean ====
/-
  What the kernel body computes on one block of 2000 rows, entry by entry.

  The body's stores are written over payloads (Skeleton): the second layer's product (pay4), the broadcast second bias
  (pay5), the third layer's rectified row (pay6), the outer normalisation's scale, shift and mean re-laid (pay7-9), the
  normalised block (pay1) and the two heads (pay2, pay3). Read at entry (p, q) of the block, each is the row function of
  MlpSpec applied to row p of the block of features, with the weights read off the resident blocks: a [1, 256] block
  gives its one row, a matrix block its (row, column) entries. The matrix unit's products into the zero accumulator are
  plain sums over the contracted axis (LibMatmul), a change of float format is the identity on the extended reals, and
  a [1, 256] row broadcast over 2000 rows reads the row.
-/
import proofs.«112416_j20401094656403_1_alg».proof.Proof.Gen.KernelIdeal.Skeleton
import proofs.«112416_j20401094656403_1_alg».proof.Proof.LibMatmul
import proofs.«112416_j20401094656403_1_alg».proof.Proof.MlpSpec
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- The one row of a [1, 256] block. -/
def row (v : Vec Ideal S1x256 .f32) : Fin 256 → EReal := fun q => v (ix2 (0 : Fin 1) q)

/-- The entries of a matrix block by (row, column). -/
def mat {K B : ℕ} (v : (⟨2, ![K, B]⟩ : Shape).Idx → EReal) : Fin K → Fin B → EReal := fun k q => v (ix2 k q)

/-- Row p of a block of features. -/
def blockRow {A K : ℕ} (v : (⟨2, ![A, K]⟩ : Shape).Idx → EReal) (p : Fin A) : Fin K → EReal := fun k => v (ix2 p k)

/-- The weights as the body finds them in its resident blocks. -/
def params (x1 : Vec Ideal S128x256 .f32) (x2 : Vec Ideal S1x256 .f32) (x3 : Vec Ideal S256x256 .f32) (x4 : Vec Ideal S1x256 .f32)
    (x5 : Vec Ideal S256x256 .f32) (x6 x7 x8 x9 x10 x11 x12 x13 x14 x15 x16 x17 x18 : Vec Ideal S1x256 .f32)
    (x19 : Vec Ideal S256x256 .f32) (x20 : Vec Ideal S1x256 .f32) (x21 : Vec Ideal S256x256 .f32) (x22 : Vec Ideal S1x256 .f32) : Mlp.Params where
  W0 := mat x1
  b0 := row x2
  W1 := mat x3
  b1 := row x4
  W2 := mat x5
  b2 := row x6
  g0 := row x7
  beta0 := row x8
  mm0 := row x9
  mv0 := row x10
  g1 := row x11
  beta1 := row x12
  mm1 := row x13
  mv1 := row x14
  go := row x15
  betao := row x16
  mmo := row x17
  mvo := row x18
  Wm := mat x19
  bm := row x20
  Wv := mat x21
  bv := row x22

/-! ## The two dimension records: operand indices are (row, contraction) and (contraction, column) -/

theorem dotA_l0 (i : S2000x256.Idx) (q : dot_S2000x128_S128x256_S2000x256_1_0_0_1_n_n.contr.Idx) :
    (dot_S2000x128_S128x256_S2000x256_1_0_0_1_n_n.lhsIdx i q (0 : Fin 2)).val = (i (0 : Fin 2)).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem dotA_l1 (i : S2000x256.Idx) (q : dot_S2000x128_S128x256_S2000x256_1_0_0_1_n_n.contr.Idx) :
    (dot_S2000x128_S128x256_S2000x256_1_0_0_1_n_n.lhsIdx i q (1 : Fin 2)).val = (q ⟨0, by decide⟩).val :=
  dot_S2000x128_S128x256_S2000x256_1_0_0_1_n_n.lhsIdx_val_of_single rfl i q
theorem dotA_r0 (i : S2000x256.Idx) (q : dot_S2000x128_S128x256_S2000x256_1_0_0_1_n_n.contr.Idx) :
    (dot_S2000x128_S128x256_S2000x256_1_0_0_1_n_n.rhsIdx i q (0 : Fin 2)).val = (q ⟨0, by decide⟩).val :=
  dot_S2000x128_S128x256_S2000x256_1_0_0_1_n_n.rhsIdx_val_of_single rfl i q
theorem dotA_r1 (i : S2000x256.Idx) (q : dot_S2000x128_S128x256_S2000x256_1_0_0_1_n_n.contr.Idx) :
    (dot_S2000x128_S128x256_S2000x256_1_0_0_1_n_n.rhsIdx i q (1 : Fin 2)).val = (i (1 : Fin 2)).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

theorem dotB_l0 (i : S2000x256.Idx) (q : dot_S2000x256_S256x256_S2000x256_1_0_0_1_n_n.contr.Idx) :
    (dot_S2000x256_S256x256_S2000x256_1_0_0_1_n_n.lhsIdx i q (0 : Fin 2)).val = (i (0 : Fin 2)).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem dotB_l1 (i : S2000x256.Idx) (q : dot_S2000x256_S256x256_S2000x256_1_0_0_1_n_n.contr.Idx) :
    (dot_S2000x256_S256x256_S2000x256_1_0_0_1_n_n.lhsIdx i q (1 : Fin 2)).val = (q ⟨0, by decide⟩).val :=
  dot_S2000x256_S256x256_S2000x256_1_0_0_1_n_n.lhsIdx_val_of_single rfl i q
theorem dotB_r0 (i : S2000x256.Idx) (q : dot_S2000x256_S256x256_S2000x256_1_0_0_1_n_n.contr.Idx) :
    (dot_S2000x256_S256x256_S2000x256_1_0_0_1_n_n.rhsIdx i q (0 : Fin 2)).val = (q ⟨0, by decide⟩).val :=
  dot_S2000x256_S256x256_S2000x256_1_0_0_1_n_n.rhsIdx_val_of_single rfl i q
theorem dotB_r1 (i : S2000x256.Idx) (q : dot_S2000x256_S256x256_S2000x256_1_0_0_1_n_n.contr.Idx) :
    (dot_S2000x256_S256x256_S2000x256_1_0_0_1_n_n.rhsIdx i q (1 : Fin 2)).val = (i (1 : Fin 2)).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The first layer's product at entry (p, q): the sum over the 128 features. -/
theorem matmulA_apply (prec : Option ContractPrecision) (l : FVec Ideal S2000x128 .bf16) (r : FVec Ideal S128x256 .bf16) (p : Fin 2000) (q : Fin 256) :
    FloatOps.matmul dot_S2000x128_S128x256_S2000x256_1_0_0_1_n_n prec l r (constant (F := Ideal) S2000x256 .f32 0x00000000#32) (ix2 p q)
      = ∑ k : Fin 128, l (ix2 p k) * r (ix2 k q) :=
  LibMatmul.matmul_zero_ix2 dot_S2000x128_S128x256_S2000x256_1_0_0_1_n_n rfl rfl dotA_l0 dotA_l1 dotA_r0 dotA_r1 prec l r p q

/-- A later layer's product at entry (p, q): the sum over the 256 hidden columns. -/
theorem matmulB_apply (prec : Option ContractPrecision) (l : FVec Ideal S2000x256 .bf16) (r : FVec Ideal S256x256 .bf16) (p : Fin 2000) (q : Fin 256) :
    FloatOps.matmul dot_S2000x256_S256x256_S2000x256_1_0_0_1_n_n prec l r (constant (F := Ideal) S2000x256 .f32 0x00000000#32) (ix2 p q)
      = ∑ k : Fin 256, l (ix2 p k) * r (ix2 k q) :=
  LibMatmul.matmul_zero_ix2 dot_S2000x256_S256x256_S2000x256_1_0_0_1_n_n rfl rfl dotB_l0 dotB_l1 dotB_r0 dotB_r1 prec l r p q

/-- A [1, 256] row, re-cast to its own shape and broadcast over the 2000 rows, read at (p, q), is the row at q. -/
theorem bcastRow_apply (v : Vec Ideal S1x256 .f32) (hc : S1x256.ShapeCasts S1x256) (hb : S1x256.Broadcasts S2000x256) (p : Fin 2000) (q : Fin 256) :
    broadcastTo S2000x256 (shapeCast S1x256 v hc) hb (ix2 p q) = row v q := by
  rw [shapeCast_self]
  exact broadcastTo_1b_ab_apply v hb p q

/-- The same for a row that is already a computed [1, 256] value. -/
theorem bcast_apply (v : FVec Ideal S1x256 .f32) (hb : S1x256.Broadcasts S2000x256) (p : Fin 2000) (q : Fin 256) :
    broadcastTo S2000x256 v hb (ix2 p q) = v (ix2 (0 : Fin 1) q) :=
  broadcastTo_1b_ab_apply v hb p q

theorem rsqrt_apply {s : Shape} {φ : FTy} (a : FVec Ideal s φ) (i : s.Idx) : rsqrt a i = Ideal.rsqrt (a i) := rfl

theorem scalar_ofBits (b : BitVec 32) : (Scalar.ofBits (F := Ideal) .f32 b : EReal) = Ideal.ofBits .f32 b := rfl

/-! ## The payloads at an entry -/

section Payloads

variable (x0 : Vec Ideal S2000x128 .f32) (x1 : Vec Ideal S128x256 .f32) (x2 : Vec Ideal S1x256 .f32) (x3 : Vec Ideal S256x256 .f32) (x4 : Vec Ideal S1x256 .f32)
  (x5 : Vec Ideal S256x256 .f32) (x6 x7 x8 x9 x10 x11 x12 x13 x14 x15 x16 x17 x18 : Vec Ideal S1x256 .f32)
  (x19 : Vec Ideal S256x256 .f32) (x20 : Vec Ideal S1x256 .f32) (x21 : Vec Ideal S256x256 .f32) (x22 : Vec Ideal S1x256 .f32)

local notation "P" => params x1 x2 x3 x4 x5 x6 x7 x8 x9 x10 x11 x12 x13 x14 x15 x16 x17 x18 x19 x20 x21 x22

/-- The second layer's product at (p, q): the first layer's row (dense, batch normalisation, rectifier) against column q
    of the second weight matrix. -/
theorem pay4_apply (p : Fin 2000) (q : Fin 256) :
    k0_pay4 x0 x1 x2 x7 x8 x9 x10 x3 (ix2 p q) = ∑ k : Fin 256, Mlp.hidden1 P (blockRow x0 p) k * x3 (ix2 k q) := by
  unfold k0_pay4
  simp only [matmulA_apply, matmulB_apply, truncf_apply, maximumf_apply, addf_apply, mulf_apply, subf_apply, rsqrt_apply, broadcast_apply, bcast_apply, shapeCast_self]
  rfl

/-- The second bias broadcast over the rows, at (p, q). -/
theorem pay5_apply (p : Fin 2000) (q : Fin 256) : k0_pay5 x4 (ix2 p q) = row x4 q := by
  unfold k0_pay5
  simp only [matmulA_apply, matmulB_apply, truncf_apply, maximumf_apply, addf_apply, mulf_apply, subf_apply, rsqrt_apply, broadcast_apply, bcast_apply, shapeCast_self]
  rfl

/-- The third layer's rectified row at (p, q), from the second layer's product and bias. -/
theorem pay6_apply (v33 v36 : FVec Ideal S2000x256 .f32) (p : Fin 2000)
    (h33 : ∀ q : Fin 256, v33 (ix2 p q) = ∑ k : Fin 256, Mlp.hidden1 P (blockRow x0 p) k * x3 (ix2 k q))
    (h36 : ∀ q : Fin 256, v36 (ix2 p q) = row x4 q) (q : Fin 256) :
    k0_pay6 v33 v36 x11 x12 x13 x14 x5 x6 (ix2 p q) = Mlp.hidden3 P (blockRow x0 p) q := by
  unfold k0_pay6
  simp only [matmulA_apply, matmulB_apply, truncf_apply, maximumf_apply, addf_apply, mulf_apply, subf_apply, rsqrt_apply, broadcast_apply, bcast_apply, shapeCast_self, h33, h36]
  rfl

/-- The normalised block at (p, q), from the third layer's row and the outer normalisation's re-laid weights. -/
theorem pay1_apply (v67 : FVec Ideal S2000x256 .f32) (p : Fin 2000)
    (h67 : ∀ q : Fin 256, v67 (ix2 p q) = Mlp.hidden3 P (blockRow x0 p) q) (q : Fin 256) :
    k0_pay1 v67 (k0_pay7 x15) (k0_pay8 x16) (k0_pay9 x17) x18 (ix2 p q) = Mlp.normed P (blockRow x0 p) q := by
  unfold k0_pay1 k0_pay7 k0_pay8 k0_pay9
  simp only [matmulA_apply, matmulB_apply, truncf_apply, maximumf_apply, addf_apply, mulf_apply, subf_apply, rsqrt_apply, broadcast_apply, bcast_apply, shapeCast_self, h67]
  rfl

/-- The mean head's block at (p, q). -/
theorem pay2_apply (v67 : FVec Ideal S2000x256 .f32) (p : Fin 2000)
    (h67 : ∀ q : Fin 256, v67 (ix2 p q) = Mlp.hidden3 P (blockRow x0 p) q) (q : Fin 256) :
    k0_pay2 v67 (k0_pay7 x15) (k0_pay8 x16) (k0_pay9 x17) x18 x19 x20 (ix2 p q) = Mlp.meanRow P (blockRow x0 p) q := by
  unfold k0_pay2
  simp only [matmulA_apply, matmulB_apply, truncf_apply, maximumf_apply, addf_apply, mulf_apply, subf_apply, rsqrt_apply, broadcast_apply, bcast_apply, shapeCast_self, pay1_apply x0 x1 x2 x3 x4 x5 x6 x7 x8 x9 x10 x11 x12 x13 x14 x15 x16 x17 x18 x19 x20 x21 x22 v67 p h67]
  rfl

/-- The variance head's block at (p, q). -/
theorem pay3_apply (v67 : FVec Ideal S2000x256 .f32) (p : Fin 2000)
    (h67 : ∀ q : Fin 256, v67 (ix2 p q) = Mlp.hidden3 P (blockRow x0 p) q) (q : Fin 256) :
    k0_pay3 v67 (k0_pay7 x15) (k0_pay8 x16) (k0_pay9 x17) x18 x21 x22 (ix2 p q) = Mlp.varRow P (blockRow x0 p) q := by
  unfold k0_pay3
  simp only [matmulA_apply, matmulB_apply, truncf_apply, maximumf_apply, addf_apply, mulf_apply, subf_apply, rsqrt_apply, broadcast_apply, bcast_apply, shapeCast_self, pay1_apply x0 x1 x2 x3 x4 x5 x6 x7 x8 x9 x10 x11 x12 x13 x14 x15 x16 x17 x18 x19 x20 x21 x22 v67 p h67]
  rfl

/-- What the body leaves in the mean window's block, entry (p, q): the mean head of row p of the block of features. -/
theorem mean_block (p : Fin 2000) (q : Fin 256) :
    k0_pay2 (k0_pay6 (k0_pay4 x0 x1 x2 x7 x8 x9 x10 x3) (k0_pay5 x4) x11 x12 x13 x14 x5 x6) (k0_pay7 x15) (k0_pay8 x16) (k0_pay9 x17) x18 x19 x20 (ix2 p q)
      = Mlp.meanRow P (blockRow x0 p) q :=
  pay2_apply x0 x1 x2 x3 x4 x5 x6 x7 x8 x9 x10 x11 x12 x13 x14 x15 x16 x17 x18 x19 x20 x21 x22 _ p
    (pay6_apply x0 x1 x2 x3 x4 x5 x6 x7 x8 x9 x10 x11 x12 x13 x14 x15 x16 x17 x18 x19 x20 x21 x22 _ _ p
      (pay4_apply x0 x1 x2 x3 x4 x5 x6 x7 x8 x9 x10 x11 x12 x13 x14 x15 x16 x17 x18 x19 x20 x21 x22 p)
      (pay5_apply x4 p)) q

/-- What the body leaves in the variance window's block, entry (p, q). -/
theorem var_block (p : Fin 2000) (q : Fin 256) :
    k0_pay3 (k0_pay6 (k0_pay4 x0 x1 x2 x7 x8 x9 x10 x3) (k0_pay5 x4) x11 x12 x13 x14 x5 x6) (k0_pay7 x15) (k0_pay8 x16) (k0_pay9 x17) x18 x21 x22 (ix2 p q)
      = Mlp.varRow P (blockRow x0 p) q :=
  pay3_apply x0 x1 x2 x3 x4 x5 x6 x7 x8 x9 x10 x11 x12 x13 x14 x15 x16 x17 x18 x19 x20 x21 x22 _ p
    (pay6_apply x0 x1 x2 x3 x4 x5 x6 x7 x8 x9 x10 x11 x12 x13 x14 x15 x16 x17 x18 x19 x20 x21 x22 _ _ p
      (pay4_apply x0 x1 x2 x3 x4 x5 x6 x7 x8 x9 x10 x11 x12 x13 x14 x15 x16 x17 x18 x19 x20 x21 x22 p)
      (pay5_apply x4 p)) q

end Payloads

end Cert.KernelIdeal.Pay

end
-- ==== Proof.KernelBlocks.lean ====
/-
  From the blocks the kernel writes to the two whole result arrays.

  The grid has 25 points; point t stages rows 2000 t … 2000 t + 1999 of the aggregated features and of both results, and
  every weight whole (the vectors as [1, 256] arrays a host reshape made of the [256] arguments). So what point t writes
  back to a result is, entry by entry, the head of MlpSpec on row 2000 t + p of the aggregated features with the weights
  of the arguments: block t of one function of the whole arrays. The 25 blocks cover the 50000 rows, hence each result
  array ends as that function.
-/
import proofs.«112416_j20401094656403_1_alg».proof.Proof.Gen.KernelIdeal.Value
import proofs.«112416_j20401094656403_1_alg».proof.Proof.KernelPay
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

theorem zeroOff : (![0, 0] : Fin 2 → Nat) = fun _ => 0 := funext fun a => by fin_cases a <;> rfl

/-- The aggregated features as the region finds them: the host operations' value of (1 + eps) x + agg. -/
abbrev feats (c : Dev nD) : S50000x128.Idx → EReal := V m c main_v13

/-- The weights as the arguments give them. -/
def hostParams (c : Dev nD) : Mlp.Params where
  W0 := fun k q => ((m ((c : Thread nD τ).loc main_arg4)) : S128x256.Idx → EReal) (ix2 k q)
  b0 := fun q => ((m ((c : Thread nD τ).loc main_arg5)) : S256.Idx → EReal) (ix1 q)
  W1 := fun k q => ((m ((c : Thread nD τ).loc main_arg6)) : S256x256.Idx → EReal) (ix2 k q)
  b1 := fun q => ((m ((c : Thread nD τ).loc main_arg7)) : S256.Idx → EReal) (ix1 q)
  W2 := fun k q => ((m ((c : Thread nD τ).loc main_arg8)) : S256x256.Idx → EReal) (ix2 k q)
  b2 := fun q => ((m ((c : Thread nD τ).loc main_arg9)) : S256.Idx → EReal) (ix1 q)
  g0 := fun q => ((m ((c : Thread nD τ).loc main_arg10)) : S256.Idx → EReal) (ix1 q)
  beta0 := fun q => ((m ((c : Thread nD τ).loc main_arg11)) : S256.Idx → EReal) (ix1 q)
  mm0 := fun q => ((m ((c : Thread nD τ).loc main_arg12)) : S256.Idx → EReal) (ix1 q)
  mv0 := fun q => ((m ((c : Thread nD τ).loc main_arg13)) : S256.Idx → EReal) (ix1 q)
  g1 := fun q => ((m ((c : Thread nD τ).loc main_arg14)) : S256.Idx → EReal) (ix1 q)
  beta1 := fun q => ((m ((c : Thread nD τ).loc main_arg15)) : S256.Idx → EReal) (ix1 q)
  mm1 := fun q => ((m ((c : Thread nD τ).loc main_arg16)) : S256.Idx → EReal) (ix1 q)
  mv1 := fun q => ((m ((c : Thread nD τ).loc main_arg17)) : S256.Idx → EReal) (ix1 q)
  go := fun q => ((m ((c : Thread nD τ).loc main_arg18)) : S256.Idx → EReal) (ix1 q)
  betao := fun q => ((m ((c : Thread nD τ).loc main_arg19)) : S256.Idx → EReal) (ix1 q)
  mmo := fun q => ((m ((c : Thread nD τ).loc main_arg20)) : S256.Idx → EReal) (ix1 q)
  mvo := fun q => ((m ((c : Thread nD τ).loc main_arg21)) : S256.Idx → EReal) (ix1 q)
  Wm := fun k q => ((m ((c : Thread nD τ).loc main_arg22)) : S256x256.Idx → EReal) (ix2 k q)
  bm := fun q => ((m ((c : Thread nD τ).loc main_arg23)) : S256.Idx → EReal) (ix1 q)
  Wv := fun k q => ((m ((c : Thread nD τ).loc main_arg24)) : S256x256.Idx → EReal) (ix2 k q)
  bv := fun q => ((m ((c : Thread nD τ).loc main_arg25)) : S256.Idx → EReal) (ix1 q)

/-! ## The index maps over the grid -/

/-- The row windows (features, both results) are at block t of their array at point t; every weight window stays at block (0, 0). -/
theorem idx_rows : ∀ t : Fin cfg0.N, win0_0.index t (0 : Fin 2) = t.val ∧ win0_0.index t (1 : Fin 2) = 0
    ∧ win0_23.index t (0 : Fin 2) = t.val ∧ win0_23.index t (1 : Fin 2) = 0
    ∧ win0_24.index t (0 : Fin 2) = t.val ∧ win0_24.index t (1 : Fin 2) = 0 :=
  (by decide +kernel : ∀ t : Fin grid0.N, _)
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)
theorem idx_w12 : ∀ t : Fin cfg0.N, win0_12.index t (0 : Fin 2) = 0 ∧ win0_12.index t (1 : Fin 2) = 0 :=
  (by decide +kernel : ∀ t : Fin grid0.N, _)
theorem idx_w13 : ∀ t : Fin cfg0.N, win0_13.index t (0 : Fin 2) = 0 ∧ win0_13.index t (1 : Fin 2) = 0 :=
  (by decide +kernel : ∀ t : Fin grid0.N, _)
theorem idx_w14 : ∀ t : Fin cfg0.N, win0_14.index t (0 : Fin 2) = 0 ∧ win0_14.index t (1 : Fin 2) = 0 :=
  (by decide +kernel : ∀ t : Fin grid0.N, _)
theorem idx_w15 : ∀ t : Fin cfg0.N, win0_15.index t (0 : Fin 2) = 0 ∧ win0_15.index t (1 : Fin 2) = 0 :=
  (by decide +kernel : ∀ t : Fin grid0.N, _)
theorem idx_w16 : ∀ t : Fin cfg0.N, win0_16.index t (0 : Fin 2) = 0 ∧ win0_16.index t (1 : Fin 2) = 0 :=
  (by decide +kernel : ∀ t : Fin grid0.N, _)
theorem idx_w17 : ∀ t : Fin cfg0.N, win0_17.index t (0 : Fin 2) = 0 ∧ win0_17.index t (1 : Fin 2) = 0 :=
  (by decide +kernel : ∀ t : Fin grid0.N, _)
theorem idx_w18 : ∀ t : Fin cfg0.N, win0_18.index t (0 : Fin 2) = 0 ∧ win0_18.index t (1 : Fin 2) = 0 :=
  (by decide +kernel : ∀ t : Fin grid0.N, _)
theorem idx_w19 : ∀ t : Fin cfg0.N, win0_19.index t (0 : Fin 2) = 0 ∧ win0_19.index t (1 : Fin 2) = 0 :=
  (by decide +kernel : ∀ t : Fin grid0.N, _)
theorem idx_w20 : ∀ t : Fin cfg0.N, win0_20.index t (0 : Fin 2) = 0 ∧ win0_20.index t (1 : Fin 2) = 0 :=
  (by decide +kernel : ∀ t : Fin grid0.N, _)
theorem idx_w21 : ∀ t : Fin cfg0.N, win0_21.index t (0 : Fin 2) = 0 ∧ win0_21.index t (1 : Fin 2) = 0 :=
  (by decide +kernel : ∀ t : Fin grid0.N, _)
theorem idx_w22 : ∀ t : Fin cfg0.N, win0_22.index t (0 : Fin 2) = 0 ∧ win0_22.index t (1 : Fin 2) = 0 :=
  (by decide +kernel : ∀ t : Fin grid0.N, _)

/-- The node whose row is row p of point t's block. -/
def node (t : Fin cfg0.N) (p : Fin 2000) : Fin 50000 :=
  ⟨t.val * 2000 + p.val, by have h1 := t.isLt; have h2 : cfg0.N = 25 := N_0; have h3 := p.isLt; omega⟩

/-! ## Where a block's entries sit in their arrays -/

theorem emb_feats (t : Fin cfg0.N) (p : Fin 2000) (k : Fin 128) :
    ((cfg0.win 0).blk t).view.emb (ix2 p k) = ix2 (node t p) k := by
  obtain ⟨e0, e1, -⟩ := idx_rows t
  funext a; apply Fin.ext
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

theorem emb_mean (t : Fin cfg0.N) (p : Fin 2000) (q : Fin 256) :
    ((cfg0.win 23).blk t).view.emb (ix2 p q) = ix2 (node t p) q := by
  obtain ⟨-, -, e0, e1, -⟩ := idx_rows t
  funext a; apply Fin.ext
  match a with
  | ⟨0, _⟩ => show win0_23.index t (0 : Fin 2) * 2000 + 1 * p.val = t.val * 2000 + p.val; rw [e0]; omega
  | ⟨1, _⟩ => show win0_23.index t (1 : Fin 2) * 256 + 1 * q.val = q.val; rw [e1]; omega

theorem emb_var (t : Fin cfg0.N) (p : Fin 2000) (q : Fin 256) :
    ((cfg0.win 24).blk t).view.emb (ix2 p q) = ix2 (node t p) q := by
  obtain ⟨-, -, -, -, e0, e1⟩ := idx_rows t
  funext a; apply Fin.ext
  match a with
  | ⟨0, _⟩ => show win0_24.index t (0 : Fin 2) * 2000 + 1 * p.val = t.val * 2000 + p.val; rw [e0]; omega
  | ⟨1, _⟩ => show win0_24.index t (1 : Fin 2) * 256 + 1 * q.val = q.val; rw [e1]; omega

theorem emb_w1 (t : Fin cfg0.N) (k : Fin 128) (q : Fin 256) : ((cfg0.win 1).blk t).view.emb (ix2 k q) = ix2 k q := by
  obtain ⟨e0, e1⟩ := idx_w1 t
  funext a; apply Fin.ext
  match a with
  | ⟨0, _⟩ => show win0_1.index t (0 : Fin 2) * 128 + 1 * k.val = k.val; rw [e0]; omega
  | ⟨1, _⟩ => show win0_1.index t (1 : Fin 2) * 256 + 1 * q.val = q.val; rw [e1]; omega

theorem emb_w2 (t : Fin cfg0.N) (q : Fin 256) : ((cfg0.win 2).blk t).view.emb (ix2 (0 : Fin 1) q) = ix2 (0 : Fin 1) q := by
  obtain ⟨e0, e1⟩ := idx_w2 t
  funext a; apply Fin.ext
  match a with
  | ⟨0, _⟩ => show win0_2.index t (0 : Fin 2) * 1 + 1 * 0 = 0; rw [e0]
  | ⟨1, _⟩ => show win0_2.index t (1 : Fin 2) * 256 + 1 * q.val = q.val; rw [e1]; omega

theorem emb_w3 (t : Fin cfg0.N) (k : Fin 256) (q : Fin 256) : ((cfg0.win 3).blk t).view.emb (ix2 k q) = ix2 k q := by
  obtain ⟨e0, e1⟩ := idx_w3 t
  funext a; apply Fin.ext
  match a with
  | ⟨0, _⟩ => show win0_3.index t (0 : Fin 2) * 256 + 1 * k.val = k.val; rw [e0]; omega
  | ⟨1, _⟩ => show win0_3.index t (1 : Fin 2) * 256 + 1 * q.val = q.val; rw [e1]; omega

theorem emb_w4 (t : Fin cfg0.N) (q : Fin 256) : ((cfg0.win 4).blk t).view.emb (ix2 (0 : Fin 1) q) = ix2 (0 : Fin 1) q := by
  obtain ⟨e0, e1⟩ := idx_w4 t
  funext a; apply Fin.ext
  match a with
  | ⟨0, _⟩ => show win0_4.index t (0 : Fin 2) * 1 + 1 * 0 = 0; rw [e0]
  | ⟨1, _⟩ => show win0_4.index t (1 : Fin 2) * 256 + 1 * q.val = q.val; rw [e1]; omega

theorem emb_w5 (t : Fin cfg0.N) (k : Fin 256) (q : Fin 256) : ((cfg0.win 5).blk t).view.emb (ix2 k q) = ix2 k q := by
  obtain ⟨e0, e1⟩ := idx_w5 t
  funext a; apply Fin.ext
  match a with
  | ⟨0, _⟩ => show win0_5.index t (0 : Fin 2) * 256 + 1 * k.val = k.val; rw [e0]; omega
  | ⟨1, _⟩ => show win0_5.index t (1 : Fin 2) * 256 + 1 * q.val = q.val; rw [e1]; omega

theorem emb_w6 (t : Fin cfg0.N) (q : Fin 256) : ((cfg0.win 6).blk t).view.emb (ix2 (0 : Fin 1) q) = ix2 (0 : Fin 1) q := by
  obtain ⟨e0, e1⟩ := idx_w6 t
  funext a; apply Fin.ext
  match a with
  | ⟨0, _⟩ => show win0_6.index t (0 : Fin 2) * 1 + 1 * 0 = 0; rw [e0]
  | ⟨1, _⟩ => show win0_6.index t (1 : Fin 2) * 256 + 1 * q.val = q.val; rw [e1]; omega

theorem emb_w7 (t : Fin cfg0.N) (q : Fin 256) : ((cfg0.win 7).blk t).view.emb (ix2 (0 : Fin 1) q) = ix2 (0 : Fin 1) q := by
  obtain ⟨e0, e1⟩ := idx_w7 t
  funext a; apply Fin.ext
  match a with
  | ⟨0, _⟩ => show win0_7.index t (0 : Fin 2) * 1 + 1 * 0 = 0; rw [e0]
  | ⟨1, _⟩ => show win0_7.index t (1 : Fin 2) * 256 + 1 * q.val = q.val; rw [e1]; omega

theorem emb_w8 (t : Fin cfg0.N) (q : Fin 256) : ((cfg0.win 8).blk t).view.emb (ix2 (0 : Fin 1) q) = ix2 (0 : Fin 1) q := by
  obtain ⟨e0, e1⟩ := idx_w8 t
  funext a; apply Fin.ext
  match a with
  | ⟨0, _⟩ => show win0_8.index t (0 : Fin 2) * 1 + 1 * 0 = 0; rw [e0]
  | ⟨1, _⟩ => show win0_8.index t (1 : Fin 2) * 256 + 1 * q.val = q.val; rw [e1]; omega

theorem emb_w9 (t : Fin cfg0.N) (q : Fin 256) : ((cfg0.win 9).blk t).view.emb (ix2 (0 : Fin 1) q) = ix2 (0 : Fin 1) q := by
  obtain ⟨e0, e1⟩ := idx_w9 t
  funext a; apply Fin.ext
  match a with
  | ⟨0, _⟩ => show win0_9.index t (0 : Fin 2) * 1 + 1 * 0 = 0; rw [e0]
  | ⟨1, _⟩ => show win0_9.index t (1 : Fin 2) * 256 + 1 * q.val = q.val; rw [e1]; omega

theorem emb_w10 (t : Fin cfg0.N) (q : Fin 256) : ((cfg0.win 10).blk t).view.emb (ix2 (0 : Fin 1) q) = ix2 (0 : Fin 1) q := by
  obtain ⟨e0, e1⟩ := idx_w10 t
  funext a; apply Fin.ext
  match a with
  | ⟨0, _⟩ => show win0_10.index t (0 : Fin 2) * 1 + 1 * 0 = 0; rw [e0]
  | ⟨1, _⟩ => show win0_10.index t (1 : Fin 2) * 256 + 1 * q.val = q.val; rw [e1]; omega

theorem emb_w11 (t : Fin cfg0.N) (q : Fin 256) : ((cfg0.win 11).blk t).view.emb (ix2 (0 : Fin 1) q) = ix2 (0 : Fin 1) q := by
  obtain ⟨e0, e1⟩ := idx_w11 t
  funext a; apply Fin.ext
  match a with
  | ⟨0, _⟩ => show win0_11.index t (0 : Fin 2) * 1 + 1 * 0 = 0; rw [e0]
  | ⟨1, _⟩ => show win0_11.index t (1 : Fin 2) * 256 + 1 * q.val = q.val; rw [e1]; omega

theorem emb_w12 (t : Fin cfg0.N) (q : Fin 256) : ((cfg0.win 12).blk t).view.emb (ix2 (0 : Fin 1) q) = ix2 (0 : Fin 1) q := by
  obtain ⟨e0, e1⟩ := idx_w12 t
  funext a; apply Fin.ext
  match a with
  | ⟨0, _⟩ => show win0_12.index t (0 : Fin 2) * 1 + 1 * 0 = 0; rw [e0]
  | ⟨1, _⟩ => show win0_12.index t (1 : Fin 2) * 256 + 1 * q.val = q.val; rw [e1]; omega

theorem emb_w13 (t : Fin cfg0.N) (q : Fin 256) : ((cfg0.win 13).blk t).view.emb (ix2 (0 : Fin 1) q) = ix2 (0 : Fin 1) q := by
  obtain ⟨e0, e1⟩ := idx_w13 t
  funext a; apply Fin.ext
  match a with
  | ⟨0, _⟩ => show win0_13.index t (0 : Fin 2) * 1 + 1 * 0 = 0; rw [e0]
  | ⟨1, _⟩ => show win0_13.index t (1 : Fin 2) * 256 + 1 * q.val = q.val; rw [e1]; omega

theorem emb_w14 (t : Fin cfg0.N) (q : Fin 256) : ((cfg0.win 14).blk t).view.emb (ix2 (0 : Fin 1) q) = ix2 (0 : Fin 1) q := by
  obtain ⟨e0, e1⟩ := idx_w14 t
  funext a; apply Fin.ext
  match a with
  | ⟨0, _⟩ => show win0_14.index t (0 : Fin 2) * 1 + 1 * 0 = 0; rw [e0]
  | ⟨1, _⟩ => show win0_14.index t (1 : Fin 2) * 256 + 1 * q.val = q.val; rw [e1]; omega

theorem emb_w15 (t : Fin cfg0.N) (q : Fin 256) : ((cfg0.win 15).blk t).view.emb (ix2 (0 : Fin 1) q) = ix2 (0 : Fin 1) q := by
  obtain ⟨e0, e1⟩ := idx_w15 t
  funext a; apply Fin.ext
  match a with
  | ⟨0, _⟩ => show win0_15.index t (0 : Fin 2) * 1 + 1 * 0 = 0; rw [e0]
  | ⟨1, _⟩ => show win0_15.index t (1 : Fin 2) * 256 + 1 * q.val = q.val; rw [e1]; omega

theorem emb_w16 (t : Fin cfg0.N) (q : Fin 256) : ((cfg0.win 16).blk t).view.emb (ix2 (0 : Fin 1) q) = ix2 (0 : Fin 1) q := by
  obtain ⟨e0, e1⟩ := idx_w16 t
  funext a; apply Fin.ext
  match a with
  | ⟨0, _⟩ => show win0_16.index t (0 : Fin 2) * 1 + 1 * 0 = 0; rw [e0]
  | ⟨1, _⟩ => show win0_16.index t (1 : Fin 2) * 256 + 1 * q.val = q.val; rw [e1]; omega

theorem emb_w17 (t : Fin cfg0.N) (q : Fin 256) : ((cfg0.win 17).blk t).view.emb (ix2 (0 : Fin 1) q) = ix2 (0 : Fin 1) q := by
  obtain ⟨e0, e1⟩ := idx_w17 t
  funext a; apply Fin.ext
  match a with
  | ⟨0, _⟩ => show win0_17.index t (0 : Fin 2) * 1 + 1 * 0 = 0; rw [e0]
  | ⟨1, _⟩ => show win0_17.index t (1 : Fin 2) * 256 + 1 * q.val = q.val; rw [e1]; omega

theorem emb_w18 (t : Fin cfg0.N) (q : Fin 256) : ((cfg0.win 18).blk t).view.emb (ix2 (0 : Fin 1) q) = ix2 (0 : Fin 1) q := by
  obtain ⟨e0, e1⟩ := idx_w18 t
  funext a; apply Fin.ext
  match a with
  | ⟨0, _⟩ => show win0_18.index t (0 : Fin 2) * 1 + 1 * 0 = 0; rw [e0]
  | ⟨1, _⟩ => show win0_18.index t (1 : Fin 2) * 256 + 1 * q.val = q.val; rw [e1]; omega

theorem emb_w19 (t : Fin cfg0.N) (k : Fin 256) (q : Fin 256) : ((cfg0.win 19).blk t).view.emb (ix2 k q) = ix2 k q := by
  obtain ⟨e0, e1⟩ := idx_w19 t
  funext a; apply Fin.ext
  match a with
  | ⟨0, _⟩ => show win0_19.index t (0 : Fin 2) * 256 + 1 * k.val = k.val; rw [e0]; omega
  | ⟨1, _⟩ => show win0_19.index t (1 : Fin 2) * 256 + 1 * q.val = q.val; rw [e1]; omega

theorem emb_w20 (t : Fin cfg0.N) (q : Fin 256) : ((cfg0.win 20).blk t).view.emb (ix2 (0 : Fin 1) q) = ix2 (0 : Fin 1) q := by
  obtain ⟨e0, e1⟩ := idx_w20 t
  funext a; apply Fin.ext
  match a with
  | ⟨0, _⟩ => show win0_20.index t (0 : Fin 2) * 1 + 1 * 0 = 0; rw [e0]
  | ⟨1, _⟩ => show win0_20.index t (1 : Fin 2) * 256 + 1 * q.val = q.val; rw [e1]; omega

theorem emb_w21 (t : Fin cfg0.N) (k : Fin 256) (q : Fin 256) : ((cfg0.win 21).blk t).view.emb (ix2 k q) = ix2 k q := by
  obtain ⟨e0, e1⟩ := idx_w21 t
  funext a; apply Fin.ext
  match a with
  | ⟨0, _⟩ => show win0_21.index t (0 : Fin 2) * 256 + 1 * k.val = k.val; rw [e0]; omega
  | ⟨1, _⟩ => show win0_21.index t (1 : Fin 2) * 256 + 1 * q.val = q.val; rw [e1]; omega

theorem emb_w22 (t : Fin cfg0.N) (q : Fin 256) : ((cfg0.win 22).blk t).view.emb (ix2 (0 : Fin 1) q) = ix2 (0 : Fin 1) q := by
  obtain ⟨e0, e1⟩ := idx_w22 t
  funext a; apply Fin.ext
  match a with
  | ⟨0, _⟩ => show win0_22.index t (0 : Fin 2) * 1 + 1 * 0 = 0; rw [e0]
  | ⟨1, _⟩ => show win0_22.index t (1 : Fin 2) * 256 + 1 * q.val = q.val; rw [e1]; omega

/-! ## The reshaped weight vectors as the region finds them -/

theorem V_w2 (c : Dev nD) : (V m c main_v14 : S1x256.Idx → EReal) = shapeCast S1x256 ((m ((c : Thread nD τ).loc main_arg5)) : S256.Idx → EReal) shapeCasts_S256_S1x256 := by
  dsimp only [Gen.V, Gen.hostOps0]; after_results; rfl
theorem V_w4 (c : Dev nD) : (V m c main_v15 : S1x256.Idx → EReal) = shapeCast S1x256 ((m ((c : Thread nD τ).loc main_arg7)) : S256.Idx → EReal) shapeCasts_S256_S1x256 := by
  dsimp only [Gen.V, Gen.hostOps0]; after_results; rfl
theorem V_w6 (c : Dev nD) : (V m c main_v16 : S1x256.Idx → EReal) = shapeCast S1x256 ((m ((c : Thread nD τ).loc main_arg9)) : S256.Idx → EReal) shapeCasts_S256_S1x256 := by
  dsimp only [Gen.V, Gen.hostOps0]; after_results; rfl
theorem V_w7 (c : Dev nD) : (V m c main_v17 : S1x256.Idx → EReal) = shapeCast S1x256 ((m ((c : Thread nD τ).loc main_arg10)) : S256.Idx → EReal) shapeCasts_S256_S1x256 := by
  dsimp only [Gen.V, Gen.hostOps0]; after_results; rfl
theorem V_w8 (c : Dev nD) : (V m c main_v18 : S1x256.Idx → EReal) = shapeCast S1x256 ((m ((c : Thread nD τ).loc main_arg11)) : S256.Idx → EReal) shapeCasts_S256_S1x256 := by
  dsimp only [Gen.V, Gen.hostOps0]; after_results; rfl
theorem V_w9 (c : Dev nD) : (V m c main_v19 : S1x256.Idx → EReal) = shapeCast S1x256 ((m ((c : Thread nD τ).loc main_arg12)) : S256.Idx → EReal) shapeCasts_S256_S1x256 := by
  dsimp only [Gen.V, Gen.hostOps0]; after_results; rfl
theorem V_w10 (c : Dev nD) : (V m c main_v20 : S1x256.Idx → EReal) = shapeCast S1x256 ((m ((c : Thread nD τ).loc main_arg13)) : S256.Idx → EReal) shapeCasts_S256_S1x256 := by
  dsimp only [Gen.V, Gen.hostOps0]; after_results; rfl
theorem V_w11 (c : Dev nD) : (V m c main_v21 : S1x256.Idx → EReal) = shapeCast S1x256 ((m ((c : Thread nD τ).loc main_arg14)) : S256.Idx → EReal) shapeCasts_S256_S1x256 := by
  dsimp only [Gen.V, Gen.hostOps0]; after_results; rfl
theorem V_w12 (c : Dev nD) : (V m c main_v22 : S1x256.Idx → EReal) = shapeCast S1x256 ((m ((c : Thread nD τ).loc main_arg15)) : S256.Idx → EReal) shapeCasts_S256_S1x256 := by
  dsimp only [Gen.V, Gen.hostOps0]; after_results; rfl
theorem V_w13 (c : Dev nD) : (V m c main_v23 : S1x256.Idx → EReal) = shapeCast S1x256 ((m ((c : Thread nD τ).loc main_arg16)) : S256.Idx → EReal) shapeCasts_S256_S1x256 := by
  dsimp only [Gen.V, Gen.hostOps0]; after_results; rfl
theorem V_w14 (c : Dev nD) : (V m c main_v24 : S1x256.Idx → EReal) = shapeCast S1x256 ((m ((c : Thread nD τ).loc main_arg17)) : S256.Idx → EReal) shapeCasts_S256_S1x256 := by
  dsimp only [Gen.V, Gen.hostOps0]; after_results; rfl
theorem V_w15 (c : Dev nD) : (V m c main_v25 : S1x256.Idx → EReal) = shapeCast S1x256 ((m ((c : Thread nD τ).loc main_arg18)) : S256.Idx → EReal) shapeCasts_S256_S1x256 := by
  dsimp only [Gen.V, Gen.hostOps0]; after_results; rfl
theorem V_w16 (c : Dev nD) : (V m c main_v26 : S1x256.Idx → EReal) = shapeCast S1x256 ((m ((c : Thread nD τ).loc main_arg19)) : S256.Idx → EReal) shapeCasts_S256_S1x256 := by
  dsimp only [Gen.V, Gen.hostOps0]; after_results; rfl
theorem V_w17 (c : Dev nD) : (V m c main_v27 : S1x256.Idx → EReal) = shapeCast S1x256 ((m ((c : Thread nD τ).loc main_arg20)) : S256.Idx → EReal) shapeCasts_S256_S1x256 := by
  dsimp only [Gen.V, Gen.hostOps0]; after_results; rfl
theorem V_w18 (c : Dev nD) : (V m c main_v28 : S1x256.Idx → EReal) = shapeCast S1x256 ((m ((c : Thread nD τ).loc main_arg21)) : S256.Idx → EReal) shapeCasts_S256_S1x256 := by
  dsimp only [Gen.V, Gen.hostOps0]; after_results; rfl
theorem V_w20 (c : Dev nD) : (V m c main_v29 : S1x256.Idx → EReal) = shapeCast S1x256 ((m ((c : Thread nD τ).loc main_arg23)) : S256.Idx → EReal) shapeCasts_S256_S1x256 := by
  dsimp only [Gen.V, Gen.hostOps0]; after_results; rfl
theorem V_w22 (c : Dev nD) : (V m c main_v30 : S1x256.Idx → EReal) = shapeCast S1x256 ((m ((c : Thread nD τ).loc main_arg25)) : S256.Idx → EReal) shapeCasts_S256_S1x256 := by
  dsimp only [Gen.V, Gen.hostOps0]; after_results; rfl

/-! ## The weights read off the resident blocks are the arguments' -/

theorem blk_w1 (c : Dev nD) (t : Fin cfg0.N) : Pay.mat (iblk m c 1 t) = fun k q => ((m ((c : Thread nD τ).loc main_arg4)) : S128x256.Idx → EReal) (ix2 k q) := by
  funext k q
  show V m c main_arg4 (((cfg0.win 1).blk t).view.emb (ix2 k q)) = _
  rw [emb_w1 t k q, V_main_arg4 m c]

theorem blk_w2 (c : Dev nD) (t : Fin cfg0.N) : Pay.row (iblk m c 2 t) = fun q => ((m ((c : Thread nD τ).loc main_arg5)) : S256.Idx → EReal) (ix1 q) := by
  funext q
  show V m c main_v14 (((cfg0.win 2).blk t).view.emb (ix2 (0 : Fin 1) q)) = _
  rw [emb_w2 t q, V_w2 m c]
  exact shapeCast_a_1a_apply _ _ 0 q

theorem blk_w3 (c : Dev nD) (t : Fin cfg0.N) : Pay.mat (iblk m c 3 t) = fun k q => ((m ((c : Thread nD τ).loc main_arg6)) : S256x256.Idx → EReal) (ix2 k q) := by
  funext k q
  show V m c main_arg6 (((cfg0.win 3).blk t).view.emb (ix2 k q)) = _
  rw [emb_w3 t k q, V_main_arg6 m c]

theorem blk_w4 (c : Dev nD) (t : Fin cfg0.N) : Pay.row (iblk m c 4 t) = fun q => ((m ((c : Thread nD τ).loc main_arg7)) : S256.Idx → EReal) (ix1 q) := by
  funext q
  show V m c main_v15 (((cfg0.win 4).blk t).view.emb (ix2 (0 : Fin 1) q)) = _
  rw [emb_w4 t q, V_w4 m c]
  exact shapeCast_a_1a_apply _ _ 0 q

theorem blk_w5 (c : Dev nD) (t : Fin cfg0.N) : Pay.mat (iblk m c 5 t) = fun k q => ((m ((c : Thread nD τ).loc main_arg8)) : S256x256.Idx → EReal) (ix2 k q) := by
  funext k q
  show V m c main_arg8 (((cfg0.win 5).blk t).view.emb (ix2 k q)) = _
  rw [emb_w5 t k q, V_main_arg8 m c]

theorem blk_w6 (c : Dev nD) (t : Fin cfg0.N) : Pay.row (iblk m c 6 t) = fun q => ((m ((c : Thread nD τ).loc main_arg9)) : S256.Idx → EReal) (ix1 q) := by
  funext q
  show V m c main_v16 (((cfg0.win 6).blk t).view.emb (ix2 (0 : Fin 1) q)) = _
  rw [emb_w6 t q, V_w6 m c]
  exact shapeCast_a_1a_apply _ _ 0 q

theorem blk_w7 (c : Dev nD) (t : Fin cfg0.N) : Pay.row (iblk m c 7 t) = fun q => ((m ((c : Thread nD τ).loc main_arg10)) : S256.Idx → EReal) (ix1 q) := by
  funext q
  show V m c main_v17 (((cfg0.win 7).blk t).view.emb (ix2 (0 : Fin 1) q)) = _
  rw [emb_w7 t q, V_w7 m c]
  exact shapeCast_a_1a_apply _ _ 0 q

theorem blk_w8 (c : Dev nD) (t : Fin cfg0.N) : Pay.row (iblk m c 8 t) = fun q => ((m ((c : Thread nD τ).loc main_arg11)) : S256.Idx → EReal) (ix1 q) := by
  funext q
  show V m c main_v18 (((cfg0.win 8).blk t).view.emb (ix2 (0 : Fin 1) q)) = _
  rw [emb_w8 t q, V_w8 m c]
  exact shapeCast_a_1a_apply _ _ 0 q

theorem blk_w9 (c : Dev nD) (t : Fin cfg0.N) : Pay.row (iblk m c 9 t) = fun q => ((m ((c : Thread nD τ).loc main_arg12)) : S256.Idx → EReal) (ix1 q) := by
  funext q
  show V m c main_v19 (((cfg0.win 9).blk t).view.emb (ix2 (0 : Fin 1) q)) = _
  rw [emb_w9 t q, V_w9 m c]
  exact shapeCast_a_1a_apply _ _ 0 q

theorem blk_w10 (c : Dev nD) (t : Fin cfg0.N) : Pay.row (iblk m c 10 t) = fun q => ((m ((c : Thread nD τ).loc main_arg13)) : S256.Idx → EReal) (ix1 q) := by
  funext q
  show V m c main_v20 (((cfg0.win 10).blk t).view.emb (ix2 (0 : Fin 1) q)) = _
  rw [emb_w10 t q, V_w10 m c]
  exact shapeCast_a_1a_apply _ _ 0 q

theorem blk_w11 (c : Dev nD) (t : Fin cfg0.N) : Pay.row (iblk m c 11 t) = fun q => ((m ((c : Thread nD τ).loc main_arg14)) : S256.Idx → EReal) (ix1 q) := by
  funext q
  show V m c main_v21 (((cfg0.win 11).blk t).view.emb (ix2 (0 : Fin 1) q)) = _
  rw [emb_w11 t q, V_w11 m c]
  exact shapeCast_a_1a_apply _ _ 0 q

theorem blk_w12 (c : Dev nD) (t : Fin cfg0.N) : Pay.row (iblk m c 12 t) = fun q => ((m ((c : Thread nD τ).loc main_arg15)) : S256.Idx → EReal) (ix1 q) := by
  funext q
  show V m c main_v22 (((cfg0.win 12).blk t).view.emb (ix2 (0 : Fin 1) q)) = _
  rw [emb_w12 t q, V_w12 m c]
  exact shapeCast_a_1a_apply _ _ 0 q

theorem blk_w13 (c : Dev nD) (t : Fin cfg0.N) : Pay.row (iblk m c 13 t) = fun q => ((m ((c : Thread nD τ).loc main_arg16)) : S256.Idx → EReal) (ix1 q) := by
  funext q
  show V m c main_v23 (((cfg0.win 13).blk t).view.emb (ix2 (0 : Fin 1) q)) = _
  rw [emb_w13 t q, V_w13 m c]
  exact shapeCast_a_1a_apply _ _ 0 q

theorem blk_w14 (c : Dev nD) (t : Fin cfg0.N) : Pay.row (iblk m c 14 t) = fun q => ((m ((c : Thread nD τ).loc main_arg17)) : S256.Idx → EReal) (ix1 q) := by
  funext q
  show V m c main_v24 (((cfg0.win 14).blk t).view.emb (ix2 (0 : Fin 1) q)) = _
  rw [emb_w14 t q, V_w14 m c]
  exact shapeCast_a_1a_apply _ _ 0 q

theorem blk_w15 (c : Dev nD) (t : Fin cfg0.N) : Pay.row (iblk m c 15 t) = fun q => ((m ((c : Thread nD τ).loc main_arg18)) : S256.Idx → EReal) (ix1 q) := by
  funext q
  show V m c main_v25 (((cfg0.win 15).blk t).view.emb (ix2 (0 : Fin 1) q)) = _
  rw [emb_w15 t q, V_w15 m c]
  exact shapeCast_a_1a_apply _ _ 0 q

theorem blk_w16 (c : Dev nD) (t : Fin cfg0.N) : Pay.row (iblk m c 16 t) = fun q => ((m ((c : Thread nD τ).loc main_arg19)) : S256.Idx → EReal) (ix1 q) := by
  funext q
  show V m c main_v26 (((cfg0.win 16).blk t).view.emb (ix2 (0 : Fin 1) q)) = _
  rw [emb_w16 t q, V_w16 m c]
  exact shapeCast_a_1a_apply _ _ 0 q

theorem blk_w17 (c : Dev nD) (t : Fin cfg0.N) : Pay.row (iblk m c 17 t) = fun q => ((m ((c : Thread nD τ).loc main_arg20)) : S256.Idx → EReal) (ix1 q) := by
  funext q
  show V m c main_v27 (((cfg0.win 17).blk t).view.emb (ix2 (0 : Fin 1) q)) = _
  rw [emb_w17 t q, V_w17 m c]
  exact shapeCast_a_1a_apply _ _ 0 q

theorem blk_w18 (c : Dev nD) (t : Fin cfg0.N) : Pay.row (iblk m c 18 t) = fun q => ((m ((c : Thread nD τ).loc main_arg21)) : S256.Idx → EReal) (ix1 q) := by
  funext q
  show V m c main_v28 (((cfg0.win 18).blk t).view.emb (ix2 (0 : Fin 1) q)) = _
  rw [emb_w18 t q, V_w18 m c]
  exact shapeCast_a_1a_apply _ _ 0 q

theorem blk_w19 (c : Dev nD) (t : Fin cfg0.N) : Pay.mat (iblk m c 19 t) = fun k q => ((m ((c : Thread nD τ).loc main_arg22)) : S256x256.Idx → EReal) (ix2 k q) := by
  funext k q
  show V m c main_arg22 (((cfg0.win 19).blk t).view.emb (ix2 k q)) = _
  rw [emb_w19 t k q, V_main_arg22 m c]

theorem blk_w20 (c : Dev nD) (t : Fin cfg0.N) : Pay.row (iblk m c 20 t) = fun q => ((m ((c : Thread nD τ).loc main_arg23)) : S256.Idx → EReal) (ix1 q) := by
  funext q
  show V m c main_v29 (((cfg0.win 20).blk t).view.emb (ix2 (0 : Fin 1) q)) = _
  rw [emb_w20 t q, V_w20 m c]
  exact shapeCast_a_1a_apply _ _ 0 q

theorem blk_w21 (c : Dev nD) (t : Fin cfg0.N) : Pay.mat (iblk m c 21 t) = fun k q => ((m ((c : Thread nD τ).loc main_arg24)) : S256x256.Idx → EReal) (ix2 k q) := by
  funext k q
  show V m c main_arg24 (((cfg0.win 21).blk t).view.emb (ix2 k q)) = _
  rw [emb_w21 t k q, V_main_arg24 m c]

theorem blk_w22 (c : Dev nD) (t : Fin cfg0.N) : Pay.row (iblk m c 22 t) = fun q => ((m ((c : Thread nD τ).loc main_arg25)) : S256.Idx → EReal) (ix1 q) := by
  funext q
  show V m c main_v30 (((cfg0.win 22).blk t).view.emb (ix2 (0 : Fin 1) q)) = _
  rw [emb_w22 t q, V_w22 m c]
  exact shapeCast_a_1a_apply _ _ 0 q

/-- Row p of point t's block of features is row 2000 t + p of the aggregated features. -/
theorem blk_feats (c : Dev nD) (t : Fin cfg0.N) (p : Fin 2000) : Pay.blockRow (iblk m c 0 t) p = Mlp.rowOf (feats m c) (node t p) := by
  funext k
  show V m c main_v13 (((cfg0.win 0).blk t).view.emb (ix2 p k)) = V m c main_v13 (ix2 (node t p) k)
  rw [emb_feats t p k]

/-- The weights the body reads at any point are the arguments'. -/
theorem params_eq (c : Dev nD) (t : Fin cfg0.N) :
    Pay.params (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) = hostParams m c := by
  unfold Pay.params hostParams
  rw [blk_w1 m c t, blk_w2 m c t, blk_w3 m c t, blk_w4 m c t, blk_w5 m c t, blk_w6 m c t, blk_w7 m c t, blk_w8 m c t, blk_w9 m c t, blk_w10 m c t, blk_w11 m c t, blk_w12 m c t, blk_w13 m c t, blk_w14 m c t, blk_w15 m c t, blk_w16 m c t, blk_w17 m c t, blk_w18 m c t, blk_w19 m c t, blk_w20 m c t, blk_w21 m c t, blk_w22 m c t]

/-! ## What each point writes back, and the arrays after the run -/

/-- Point t writes block t of the mean result of MlpSpec back to the first result array. -/
theorem flushed_mean (c : Dev nD) (t : Fin cfg0.N) :
    (dats m 0 c).flushed 23 t = ((cfg0.win 23).blk t).view.read (Elt Ideal) (Mlp.meanOut (hostParams m c) (feats m c)) := by
  rw [Value.flushed23]
  unfold out0_23
  rw [View.canon_unit_zero zeroOff]
  simp only [View.ld_unit_zero (S := S2000x128) zeroOff, View.ld_unit_zero (S := S128x256) zeroOff, View.ld_unit_zero (S := S1x256) zeroOff, View.ld_unit_zero (S := S256x256) zeroOff]
  funext j
  obtain ⟨p, q, rfl⟩ : ∃ (p : Fin 2000) (q : Fin 256), j = ix2 p q := ⟨j 0, j 1, eq_ix2 j⟩
  refine (Pay.mean_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) p q).trans ?_
  show _ = Mlp.meanOut (hostParams m c) (feats m c) (((cfg0.win 23).blk t).view.emb (ix2 p q))
  rw [emb_mean t p q, Mlp.meanOut_ix2, params_eq m c t, blk_feats m c t p]

/-- Point t writes block t of the variance result of MlpSpec back to the second result array. -/
theorem flushed_var (c : Dev nD) (t : Fin cfg0.N) :
    (dats m 0 c).flushed 24 t = ((cfg0.win 24).blk t).view.read (Elt Ideal) (Mlp.varOut (hostParams m c) (feats m c)) := by
  rw [Value.flushed24]
  unfold out0_24
  rw [View.canon_unit_zero zeroOff]
  simp only [View.ld_unit_zero (S := S2000x128) zeroOff, View.ld_unit_zero (S := S128x256) zeroOff, View.ld_unit_zero (S := S1x256) zeroOff, View.ld_unit_zero (S := S256x256) zeroOff]
  funext j
  obtain ⟨p, q, rfl⟩ : ∃ (p : Fin 2000) (q : Fin 256), j = ix2 p q := ⟨j 0, j 1, eq_ix2 j⟩
  refine (Pay.var_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) p q).trans ?_
  show _ = Mlp.varOut (hostParams m c) (feats m c) (((cfg0.win 24).blk t).view.emb (ix2 p q))
  rw [emb_var t p q, Mlp.varOut_ix2, params_eq m c t, blk_feats m c t p]

/-- An index of a result array is in point t's block iff each coordinate is in the block's range on its axis. -/
theorem mem_blk_mean (t : Fin cfg0.N) (i : S50000x256.Idx) :
    i ∈ ((cfg0.win 23).blk t).view.set ↔ ∀ a : Fin 2, win0_23.index t a * S2000x256.size a ≤ (i a).val ∧ (i a).val < win0_23.index t a * S2000x256.size a + S2000x256.size a := by
  show i ∈ ((View.whole main_v31_0).slice (win0_23.rect t)).set ↔ _
  rw [View.set_slice_whole, Rect.mem_set_unit]
  exact Iff.rfl

theorem mem_blk_var (t : Fin cfg0.N) (i : S50000x256.Idx) :
    i ∈ ((cfg0.win 24).blk t).view.set ↔ ∀ a : Fin 2, win0_24.index t a * S2000x256.size a ≤ (i a).val ∧ (i a).val < win0_24.index t a * S2000x256.size a + S2000x256.size a := by
  show i ∈ ((View.whole main_v31_1).slice (win0_24.rect t)).set ↔ _
  rw [View.set_slice_whole, Rect.mem_set_unit]
  exact Iff.rfl

/-- Row r of a result lies in the block of point r / 2000: the blocks cover the array. -/
theorem cover_mean (i : S50000x256.Idx) : ∃ t : Fin cfg0.N, (cfg0.win 23).flush t = true ∧ i ∈ ((cfg0.win 23).blk t).view.set := by
  have hi0 : (i 0).val < 50000 := (i 0).isLt
  have hi1 : (i 1).val < 256 := (i 1).isLt
  have hN : cfg0.N = 25 := N_0
  have ht : (i 0).val / 2000 < cfg0.N := by omega
  obtain ⟨-, -, e0, e1, -⟩ := idx_rows ⟨(i 0).val / 2000, ht⟩
  refine ⟨⟨(i 0).val / 2000, ht⟩, flush0_23 _, ?_⟩
  rw [mem_blk_mean]
  intro a
  match a with
  | ⟨0, _⟩ =>
    show win0_23.index ⟨(i 0).val / 2000, ht⟩ (0 : Fin 2) * 2000 ≤ (i 0).val ∧ (i 0).val < win0_23.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_23.index ⟨(i 0).val / 2000, ht⟩ (1 : Fin 2) * 256 ≤ (i 1).val ∧ (i 1).val < win0_23.index ⟨(i 0).val / 2000, ht⟩ (1 : Fin 2) * 256 + 256
    rw [e1]; omega

theorem cover_var (i : S50000x256.Idx) : ∃ t : Fin cfg0.N, (cfg0.win 24).flush t = true ∧ i ∈ ((cfg0.win 24).blk t).view.set := by
  have hi0 : (i 0).val < 50000 := (i 0).isLt
  have hi1 : (i 1).val < 256 := (i 1).isLt
  have hN : cfg0.N = 25 := N_0
  have ht : (i 0).val / 2000 < cfg0.N := by omega
  obtain ⟨-, -, -, -, e0, e1⟩ := idx_rows ⟨(i 0).val / 2000, ht⟩
  refine ⟨⟨(i 0).val / 2000, ht⟩, flush0_24 _, ?_⟩
  rw [mem_blk_var]
  intro a
  match a with
  | ⟨0, _⟩ =>
    show win0_24.index ⟨(i 0).val / 2000, ht⟩ (0 : Fin 2) * 2000 ≤ (i 0).val ∧ (i 0).val < win0_24.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_24.index ⟨(i 0).val / 2000, ht⟩ (1 : Fin 2) * 256 ≤ (i 1).val ∧ (i 1).val < win0_24.index ⟨(i 0).val / 2000, ht⟩ (1 : Fin 2) * 256 + 256
    rw [e1]; omega

/-- The first result array after the run. -/
theorem final_mean (c : Dev nD) : (dats m 0 c).arrAt 23 cfg0.N = Mlp.meanOut (hostParams m c) (feats m c) :=
  (dats m 0 c).arrAt_eq_of_cover 23 (Mlp.meanOut (hostParams m c) (feats m c)) (fun t _ => flushed_mean m c t) cover_mean

/-- The second result array after the run. -/
theorem final_var (c : Dev nD) : (dats m 0 c).arrAt 24 cfg0.N = Mlp.varOut (hostParams m c) (feats m c) :=
  (dats m 0 c).arrAt_eq_of_cover 24 (Mlp.varOut (hostParams m c) (feats m c)) (fun t _ => flushed_var m c t) cover_var

end Cert.KernelIdeal.Blocks

end
-- ==== Proof.RefRows.lean ====
/-
  The reference read row by row.

  The reference applies the same chain to the whole [50000, 128] array of aggregated features at once: a product with a
  weight matrix contracts the feature axis, a vector of 256 weights is broadcast over the 50000 rows, and the rectifier
  is a maximum with a broadcast zero. Read at entry (n, k), every stage depends on row n of its operand alone, so each
  stage at (n, k) is the row function of MlpSpec applied to row n of the aggregated features at column k. The stages are
  taken in the order of the program: after the first, second and third layers, after the outer normalisation, and the
  two heads.
-/
import proofs.«112416_j20401094656403_1_alg».proof.Proof.Gen.ReferenceIdeal.Read
import proofs.«112416_j20401094656403_1_alg».proof.Proof.MlpSpec

noncomputable section

namespace Cert.ReferenceIdeal.Rows

open Cert.ReferenceIdeal Cert.ReferenceIdeal.Read Idealize.ShloMosaic Idealize.ShloMosaic.ValueIdx

/-- A rank-2 index is determined by its two coordinates. -/
theorem idx2_eq {n0 n1 : ℕ} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-- A rank-1 index is determined by its coordinate. -/
theorem idx1_eq {n0 : ℕ} (f : (⟨1, ![n0]⟩ : Shape).Idx) (a : Fin n0) (h0 : (f 0).val = a.val) : f = ix1 a :=
  funext fun d => Fin.ext (by match d with | ⟨0, _⟩ => exact h0)

variable (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S_, .f32⟩ : BufTy).Contents (Elt Ideal)) (x4 : (⟨S128x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (x22 : (⟨S256x256, .f32⟩ : BufTy).Contents (Elt Ideal)) (x23 : (⟨S256, .f32⟩ : BufTy).Contents (Elt Ideal)) (x24 : (⟨S256x256, .f32⟩ : BufTy).Contents (Elt Ideal)) (x25 : (⟨S256, .f32⟩ : BufTy).Contents (Elt Ideal))

/-- The weights as the reference's arguments give them. -/
def params : Mlp.Params where
  W0 := fun k q => x4 (ix2 k q)
  b0 := fun q => x5 (ix1 q)
  W1 := fun k q => x6 (ix2 k q)
  b1 := fun q => x7 (ix1 q)
  W2 := fun k q => x8 (ix2 k q)
  b2 := fun q => x9 (ix1 q)
  g0 := fun q => x10 (ix1 q)
  beta0 := fun q => x11 (ix1 q)
  mm0 := fun q => x12 (ix1 q)
  mv0 := fun q => x13 (ix1 q)
  g1 := fun q => x14 (ix1 q)
  beta1 := fun q => x15 (ix1 q)
  mm1 := fun q => x16 (ix1 q)
  mv1 := fun q => x17 (ix1 q)
  go := fun q => x18 (ix1 q)
  betao := fun q => x19 (ix1 q)
  mmo := fun q => x20 (ix1 q)
  mvo := fun q => x21 (ix1 q)
  Wm := fun k q => x22 (ix2 k q)
  bm := fun q => x23 (ix1 q)
  Wv := fun k q => x24 (ix2 k q)
  bv := fun q => x25 (ix1 q)

local notation "P" => params x4 x5 x6 x7 x8 x9 x10 x11 x12 x13 x14 x15 x16 x17 x18 x19 x20 x21 x22 x23 x24 x25
local notation "H" => val_main_v13 (F := Ideal) x0 x1 x2 x3

/-- After the first layer (dense, batch normalisation, rectifier), entry (n, k). -/
theorem layer1 (n : Fin 50000) (k : Fin 256) :
    val_main_v31 (F := Ideal) x0 x1 x2 x3 x4 x5 x10 x11 x12 x13 (ix2 n k) = Mlp.hidden1 P (Mlp.rowOf H n) k := by
  rw [val_main_v31_apply, val_main_v30_apply, val_main_v27_apply, val_main_v20_apply, val_main_v17_apply, val_main_v14_apply, val_main_v16_apply, val_main_v15_apply, val_main_v19_apply, val_main_v18_apply, val_main_v26_apply, val_main_v25_apply, val_main_v24_apply, val_main_v23_apply, val_main_v22_apply, val_main_v21_apply, val_main_cst_2_apply, val_main_v29_apply, val_main_v28_apply, val_main_call0_v0_apply, val_main_call0_cst_apply]
  simp only [(show ∀ j : Fin 128, lidx_main_v14 (ix2 n k) j = ix2 n j from fun j => idx2_eq _ _ _ rfl rfl), (show ∀ j : Fin 128, ridx_main_v14 (ix2 n k) j = ix2 j k from fun j => idx2_eq _ _ _ rfl rfl), (idx1_eq (idx_main_v15 (idx_main_v16 (ix2 n k))) k rfl), (idx1_eq (idx_main_v18 (idx_main_v19 (ix2 n k))) k rfl), (idx1_eq (idx_main_v25 (idx_main_v26 (ix2 n k))) k rfl), (idx1_eq (idx_main_v28 (idx_main_v29 (ix2 n k))) k rfl)]
  rfl

/-- After the second layer (dense, batch normalisation, rectifier), entry (n, k). -/
theorem layer2 (n : Fin 50000) (k : Fin 256) :
    val_main_v49 (F := Ideal) x0 x1 x2 x3 x4 x5 x6 x7 x10 x11 x12 x13 x14 x15 x16 x17 (ix2 n k) = Mlp.hidden2 P (Mlp.rowOf H n) k := by
  rw [val_main_v49_apply, val_main_v48_apply, val_main_v45_apply, val_main_v38_apply, val_main_v35_apply, val_main_v32_apply, val_main_v34_apply, val_main_v33_apply, val_main_v37_apply, val_main_v36_apply, val_main_v44_apply, val_main_v43_apply, val_main_v42_apply, val_main_v41_apply, val_main_v40_apply, val_main_v39_apply, val_main_cst_3_apply, val_main_v47_apply, val_main_v46_apply, val_main_call1_v0_apply, val_main_call1_cst_apply]
  simp only [(show ∀ j : Fin 256, lidx_main_v32 (ix2 n k) j = ix2 n j from fun j => idx2_eq _ _ _ rfl rfl), (show ∀ j : Fin 256, ridx_main_v32 (ix2 n k) j = ix2 j k from fun j => idx2_eq _ _ _ rfl rfl), (idx1_eq (idx_main_v33 (idx_main_v34 (ix2 n k))) k rfl), (idx1_eq (idx_main_v36 (idx_main_v37 (ix2 n k))) k rfl), (idx1_eq (idx_main_v43 (idx_main_v44 (ix2 n k))) k rfl), (idx1_eq (idx_main_v46 (idx_main_v47 (ix2 n k))) k rfl), layer1 x0 x1 x2 x3 x4 x5 x6 x7 x8 x9 x10 x11 x12 x13 x14 x15 x16 x17 x18 x19 x20 x21 x22 x23 x24 x25]
  rfl

/-- After the third layer (dense, rectifier), entry (n, k). -/
theorem layer3 (n : Fin 50000) (k : Fin 256) :
    val_main_v54 (F := Ideal) x0 x1 x2 x3 x4 x5 x6 x7 x8 x9 x10 x11 x12 x13 x14 x15 x16 x17 (ix2 n k) = Mlp.hidden3 P (Mlp.rowOf H n) k := by
  rw [val_main_v54_apply, val_main_v53_apply, val_main_v50_apply, val_main_v52_apply, val_main_v51_apply, val_main_call2_v0_apply, val_main_call2_cst_apply]
  simp only [(show ∀ j : Fin 256, lidx_main_v50 (ix2 n k) j = ix2 n j from fun j => idx2_eq _ _ _ rfl rfl), (show ∀ j : Fin 256, ridx_main_v50 (ix2 n k) j = ix2 j k from fun j => idx2_eq _ _ _ rfl rfl), (idx1_eq (idx_main_v51 (idx_main_v52 (ix2 n k))) k rfl), layer2 x0 x1 x2 x3 x4 x5 x6 x7 x8 x9 x10 x11 x12 x13 x14 x15 x16 x17 x18 x19 x20 x21 x22 x23 x24 x25]
  rfl

/-- After the outer batch normalisation, entry (n, k): what both heads read. -/
theorem outerNorm (n : Fin 50000) (k : Fin 256) :
    val_main_v67 (F := Ideal) x0 x1 x2 x3 x4 x5 x6 x7 x8 x9 x10 x11 x12 x13 x14 x15 x16 x17 x18 x19 x20 x21 (ix2 n k) = Mlp.normed P (Mlp.rowOf H n) k := by
  rw [val_main_v67_apply, val_main_v64_apply, val_main_v57_apply, val_main_v56_apply, val_main_v55_apply, val_main_v63_apply, val_main_v62_apply, val_main_v61_apply, val_main_v60_apply, val_main_v59_apply, val_main_v58_apply, val_main_cst_4_apply, val_main_v66_apply, val_main_v65_apply]
  simp only [(idx1_eq (idx_main_v55 (idx_main_v56 (ix2 n k))) k rfl), (idx1_eq (idx_main_v62 (idx_main_v63 (ix2 n k))) k rfl), (idx1_eq (idx_main_v65 (idx_main_v66 (ix2 n k))) k rfl), layer3 x0 x1 x2 x3 x4 x5 x6 x7 x8 x9 x10 x11 x12 x13 x14 x15 x16 x17 x18 x19 x20 x21 x22 x23 x24 x25]
  rfl

/-- The mean head, entry (n, k). -/
theorem meanHead (n : Fin 50000) (k : Fin 256) :
    val_main_v71 (F := Ideal) x0 x1 x2 x3 x4 x5 x6 x7 x8 x9 x10 x11 x12 x13 x14 x15 x16 x17 x18 x19 x20 x21 x22 x23 (ix2 n k) = Mlp.meanRow P (Mlp.rowOf H n) k := by
  rw [val_main_v71_apply, val_main_v68_apply, val_main_v70_apply, val_main_v69_apply]
  simp only [(show ∀ j : Fin 256, lidx_main_v68 (ix2 n k) j = ix2 n j from fun j => idx2_eq _ _ _ rfl rfl), (show ∀ j : Fin 256, ridx_main_v68 (ix2 n k) j = ix2 j k from fun j => idx2_eq _ _ _ rfl rfl), (idx1_eq (idx_main_v69 (idx_main_v70 (ix2 n k))) k rfl), outerNorm x0 x1 x2 x3 x4 x5 x6 x7 x8 x9 x10 x11 x12 x13 x14 x15 x16 x17 x18 x19 x20 x21 x22 x23 x24 x25]
  rfl

/-- The variance head, entry (n, k). -/
theorem varHead (n : Fin 50000) (k : Fin 256) :
    val_main_v75 (F := Ideal) x0 x1 x2 x3 x4 x5 x6 x7 x8 x9 x10 x11 x12 x13 x14 x15 x16 x17 x18 x19 x20 x21 x24 x25 (ix2 n k) = Mlp.varRow P (Mlp.rowOf H n) k := by
  rw [val_main_v75_apply, val_main_v72_apply, val_main_v74_apply, val_main_v73_apply]
  simp only [(show ∀ j : Fin 256, lidx_main_v72 (ix2 n k) j = ix2 n j from fun j => idx2_eq _ _ _ rfl rfl), (show ∀ j : Fin 256, ridx_main_v72 (ix2 n k) j = ix2 j k from fun j => idx2_eq _ _ _ rfl rfl), (idx1_eq (idx_main_v73 (idx_main_v74 (ix2 n k))) k rfl), outerNorm x0 x1 x2 x3 x4 x5 x6 x7 x8 x9 x10 x11 x12 x13 x14 x15 x16 x17 x18 x19 x20 x21 x22 x23 x24 x25]
  rfl

/-- The reference's first result is the mean result of MlpSpec over the aggregated features. -/
theorem mean_eq : val_main_v71 (F := Ideal) x0 x1 x2 x3 x4 x5 x6 x7 x8 x9 x10 x11 x12 x13 x14 x15 x16 x17 x18 x19 x20 x21 x22 x23 = Mlp.meanOut P H := by
  funext i
  rw [eq_ix2 i]
  exact meanHead x0 x1 x2 x3 x4 x5 x6 x7 x8 x9 x10 x11 x12 x13 x14 x15 x16 x17 x18 x19 x20 x21 x22 x23 x24 x25 (i 0) (i 1)

/-- The reference's second result is the variance result of MlpSpec over the aggregated features. -/
theorem var_eq : val_main_v75 (F := Ideal) x0 x1 x2 x3 x4 x5 x6 x7 x8 x9 x10 x11 x12 x13 x14 x15 x16 x17 x18 x19 x20 x21 x24 x25 = Mlp.varOut P H := by
  funext i
  rw [eq_ix2 i]
  exact varHead x0 x1 x2 x3 x4 x5 x6 x7 x8 x9 x10 x11 x12 x13 x14 x15 x16 x17 x18 x19 x20 x21 x22 x23 x24 x25 (i 0) (i 1)

end Cert.ReferenceIdeal.Rows

end
-- ==== Proof.Feats.lean ====
/-
  The aggregated features are one value in both programs.

  Before anything else both programs compute h = (1 + eps) x + agg, where agg adds to each destination node's row the rows
  of the source nodes of the edges that end there: negative source indices are wrapped by the node count, the rows are
  gathered, and a scatter-add into a zero array sums them. The kernel's program and the reference spell these eighteen
  host operations identically, on the same four arguments (the features, the two index lists, eps), so the array the
  kernel's region finds for its first window is the reference's value of the same name. Neither the gather nor the
  scatter is opened.
-/
import proofs.«112416_j20401094656403_1_alg».proof.Proof.Gen.KernelIdeal.Frame
import proofs.«112416_j20401094656403_1_alg».proof.Proof.Gen.ReferenceIdeal.Read
import Idealize.ShloMosaic.Lib.StableHlo.Run

noncomputable section

namespace Cert.Proof

open Idealize.ShloMosaic Idealize.ShloMosaic.TcCoe Idealize.SL.Sem Idealize.ShloMosaic.StableHlo

set_option maxHeartbeats 8000000 in
/-- The aggregated features the kernel's region finds are the reference's value (1 + eps) x + agg of the same four
    arguments. -/
theorem feats_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v13 : Cert.KernelIdeal.S50000x128.Idx → EReal)
      = Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  dsimp only [Cert.KernelIdeal.Gen.V, Cert.KernelIdeal.Gen.hostOps0]
  after_results_simp
  rfl

end Cert.Proof

end
-- ==== Proof.lean ====
/-
  The kernel's two results equal the reference's, entry by entry, over the extended reals.

  Both programs first form the aggregated features h = (1 + eps) x + agg by the same host operations (a gather of the
  source nodes' rows and a scatter-add into the destination nodes), and then apply one chain of dense layers, batch
  normalisations and rectifiers to every row of h (MlpSpec). The reference does it on all 50000 rows at once (RefRows);
  the kernel on 25 blocks of 2000 rows, with the matrix products' operands passed through bf16, which is the identity on
  the extended reals (KernelPay, KernelBlocks). A row's results depend on that row alone, so the tiling changes
  nothing, and no algebraic law beyond this re-indexing is used: the claim holds at every input, finite or not. The
  three frame claims are the generated frames (the reference's from its generated run); the idealisation rewrote
  nothing, so the preservation claim is trivial.
-/
import proofs.«112416_j20401094656403_1_alg».proof.Defs
import proofs.«112416_j20401094656403_1_alg».proof.Proof.Gen.Kernel
import proofs.«112416_j20401094656403_1_alg».proof.Proof.Gen.Kernel.Skeleton
import proofs.«112416_j20401094656403_1_alg».proof.Proof.Gen.Kernel.Launch
import proofs.«112416_j20401094656403_1_alg».proof.Proof.Gen.Kernel.Points
import proofs.«112416_j20401094656403_1_alg».proof.Proof.Gen.Kernel.Frame
import proofs.«112416_j20401094656403_1_alg».proof.Proof.Gen.KernelIdeal
import proofs.«112416_j20401094656403_1_alg».proof.Proof.Gen.KernelIdeal.Skeleton
import proofs.«112416_j20401094656403_1_alg».proof.Proof.Gen.KernelIdeal.Launch
import proofs.«112416_j20401094656403_1_alg».proof.Proof.Gen.KernelIdeal.Points
import proofs.«112416_j20401094656403_1_alg».proof.Proof.Gen.KernelIdeal.Frame
import proofs.«112416_j20401094656403_1_alg».proof.Proof.Gen.ReferenceIdeal
import proofs.«112416_j20401094656403_1_alg».proof.Proof.Gen.Pre_finite_inputs
import proofs.«112416_j20401094656403_1_alg».proof.Proof.Gen.KernelIdeal.Value
import proofs.«112416_j20401094656403_1_alg».proof.Proof.Gen.ReferenceIdeal.Run
import proofs.«112416_j20401094656403_1_alg».proof.Proof.Gen.ReferenceIdeal.Read
import proofs.«112416_j20401094656403_1_alg».proof.Proof.KernelBlocks
import proofs.«112416_j20401094656403_1_alg».proof.Proof.RefRows
import proofs.«112416_j20401094656403_1_alg».proof.Proof.Feats
import Idealize.ShloMosaic.Adequacy
import Idealize.ShloMosaic.Init

noncomputable section

namespace Cert.Proof

open Idealize.ShloMosaic Idealize.ShloMosaic.TcCoe Idealize.SL.Sem Idealize.ShloMosaic.StableHlo

/-- The weights the two sides read are the same functions of the arguments. -/
theorem params_eq (m : (ℓ : Loc Cert.KernelIdeal.nD Cert.KernelIdeal.τ Cert.KernelIdeal.sig) → Buf (Elt Ideal) ℓ) (c : Dev Cert.KernelIdeal.nD) :
    Cert.ReferenceIdeal.Rows.params (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) = Cert.KernelIdeal.Blocks.hostParams m c := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

set_option maxHeartbeats 4000000 in
/-- Where the two memories agree on the arguments, the reference's two results, as functions of its arguments, are the
    same functions of the kernel's. -/
theorem ref_args (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hc : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))
      ∧ (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))
      ∧ (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17))
      ∧ (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18))
      ∧ (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19))
      ∧ (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20))
      ∧ (m' ((c.tc : Thread Cert.ReferenceIdeal.nD Cert.ReferenceIdeal.τ).loc Cert.ReferenceIdeal.main_arg21)) = (m ((c.tc : Thread Cert.KernelIdeal.nD Cert.KernelIdeal.τ).loc Cert.KernelIdeal.main_arg21))
      ∧ (m' ((c.tc : Thread Cert.ReferenceIdeal.nD Cert.ReferenceIdeal.τ).loc Cert.ReferenceIdeal.main_arg22)) = (m ((c.tc : Thread Cert.KernelIdeal.nD Cert.KernelIdeal.τ).loc Cert.KernelIdeal.main_arg22))
      ∧ (m' ((c.tc : Thread Cert.ReferenceIdeal.nD Cert.ReferenceIdeal.τ).loc Cert.ReferenceIdeal.main_arg23)) = (m ((c.tc : Thread Cert.KernelIdeal.nD Cert.KernelIdeal.τ).loc Cert.KernelIdeal.main_arg23))
      ∧ (m' ((c.tc : Thread Cert.ReferenceIdeal.nD Cert.ReferenceIdeal.τ).loc Cert.ReferenceIdeal.main_arg24)) = (m ((c.tc : Thread Cert.KernelIdeal.nD Cert.KernelIdeal.τ).loc Cert.KernelIdeal.main_arg24))
      ∧ (m' ((c.tc : Thread Cert.ReferenceIdeal.nD Cert.ReferenceIdeal.τ).loc Cert.ReferenceIdeal.main_arg25)) = (m ((c.tc : Thread Cert.KernelIdeal.nD Cert.KernelIdeal.τ).loc Cert.KernelIdeal.main_arg25))) :
    Cert.ReferenceIdeal.Read.val_main_v71 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23))
        = Cert.ReferenceIdeal.Read.val_main_v71 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))
    ∧ Cert.ReferenceIdeal.Read.val_main_v75 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25))
        = Cert.ReferenceIdeal.Read.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) := by
  obtain ⟨a0, a1, a2, a3, a4, a5, a6, a7, a8, a9, a10, a11, a12, a13, a14, a15, a16, a17, a18, a19, a20, a21, a22, a23, a24, a25⟩ := hc
  constructor
  · rw [a0, a1, a2, a3, a4, a5, a6, a7, a8, a9, a10, a11, a12, a13, a14, a15, a16, a17, a18, a19, a20, a21, a22, a23]
  · rw [a0, a1, a2, a3, a4, a5, a6, a7, a8, a9, a10, a11, a12, a13, a14, a15, a16, a17, a18, a19, a20, a21, a24, a25]

set_option maxHeartbeats 4000000 in
/-- So the reference's run ends with the mean and variance results of MlpSpec over the kernel's aggregated features and
    weights. -/
theorem ref_results (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hc : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))
      ∧ (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))
      ∧ (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17))
      ∧ (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18))
      ∧ (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19))
      ∧ (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20))
      ∧ (m' ((c.tc : Thread Cert.ReferenceIdeal.nD Cert.ReferenceIdeal.τ).loc Cert.ReferenceIdeal.main_arg21)) = (m ((c.tc : Thread Cert.KernelIdeal.nD Cert.KernelIdeal.τ).loc Cert.KernelIdeal.main_arg21))
      ∧ (m' ((c.tc : Thread Cert.ReferenceIdeal.nD Cert.ReferenceIdeal.τ).loc Cert.ReferenceIdeal.main_arg22)) = (m ((c.tc : Thread Cert.KernelIdeal.nD Cert.KernelIdeal.τ).loc Cert.KernelIdeal.main_arg22))
      ∧ (m' ((c.tc : Thread Cert.ReferenceIdeal.nD Cert.ReferenceIdeal.τ).loc Cert.ReferenceIdeal.main_arg23)) = (m ((c.tc : Thread Cert.KernelIdeal.nD Cert.KernelIdeal.τ).loc Cert.KernelIdeal.main_arg23))
      ∧ (m' ((c.tc : Thread Cert.ReferenceIdeal.nD Cert.ReferenceIdeal.τ).loc Cert.ReferenceIdeal.main_arg24)) = (m ((c.tc : Thread Cert.KernelIdeal.nD Cert.KernelIdeal.τ).loc Cert.KernelIdeal.main_arg24))
      ∧ (m' ((c.tc : Thread Cert.ReferenceIdeal.nD Cert.ReferenceIdeal.τ).loc Cert.ReferenceIdeal.main_arg25)) = (m ((c.tc : Thread Cert.KernelIdeal.nD Cert.KernelIdeal.τ).loc Cert.KernelIdeal.main_arg25))) :
    Cert.ReferenceIdeal.Value.res_main_v71 m' c = Mlp.meanOut (Cert.KernelIdeal.Blocks.hostParams m c) (Cert.KernelIdeal.Blocks.feats m c)
    ∧ Cert.ReferenceIdeal.Value.res_main_v75 m' c = Mlp.varOut (Cert.KernelIdeal.Blocks.hostParams m c) (Cert.KernelIdeal.Blocks.feats m c) :=
  ⟨(Cert.ReferenceIdeal.Read.val_main_v71_eq m' c).trans ((ref_args m m' c hc).1.trans
      ((Cert.ReferenceIdeal.Rows.mean_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).trans
        (congrArg₂ Mlp.meanOut (params_eq m c) (feats_eq m c).symm))),
   (Cert.ReferenceIdeal.Read.val_main_v75_eq m' c).trans ((ref_args m m' c hc).2.trans
      ((Cert.ReferenceIdeal.Rows.var_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).trans
        (congrArg₂ Mlp.varOut (params_eq m c) (feats_eq m c).symm)))⟩

set_option maxHeartbeats 4000000 in
/-- The kernel's run with both result arrays named by the specification, the arguments unchanged; the reference's run
    ends with the same two arrays. -/
theorem algebraic : Cert.algebraic_KernelIdeal_ReferenceIdeal := fun m ρ m' ρ' _ hagree =>
  ⟨fun c => Mlp.meanOut (Cert.KernelIdeal.Blocks.hostParams m c) (Cert.KernelIdeal.Blocks.feats m c),
   fun c => Mlp.varOut (Cert.KernelIdeal.Blocks.hostParams m c) (Cert.KernelIdeal.Blocks.feats m c),
   (θ_run (Cert.KernelIdeal.defs (F := Ideal)) _ _).mono
      (fun r h c => ⟨(h c).1.trans (Cert.KernelIdeal.Blocks.final_mean m c), (h c).2.1.trans (Cert.KernelIdeal.Blocks.final_var m c), (h c).2.2⟩)
      (Cert.KernelIdeal.Value.run_blocks (F := Ideal) m ρ),
   (θ_run (Cert.ReferenceIdeal.defs (F := Ideal)) _ _).mono
      (fun r h c => ⟨(h c).1.trans (ref_results m m' c (hagree c)).1, (h c).2.1.trans (ref_results m m' c (hagree c)).2, (h c).2.2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
